-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S4x128x32x32 : Shape := ⟨4, ![4, 128, 32, 32]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel
  bcast_S_S4x128x32x32 : S_.BroadcastsInDim S4x128x32x32 (![] : Fin 0 → Fin S4x128x32x32.rank)
  reducesTo_S4x128x32x32_S_d0_1_2_3 : S4x128x32x32.ReducesTo [0, 1, 2, 3] S_

variable [Facts]

def fn_part1 {F : FTy → Type} [FloatOps F] (main_v13 : IVec S_ 1) (main_v16 : IVec S4x128x32x32 1) : IVec S_ 1 :=
  let main_c_5 : IVec S_ 1 := constantI S_ 1 1#1
  let main_v17 : IVec S_ 1 := (fun x v => Host.reduce IntOp.andi x v reducesTo_S4x128x32x32_S_d0_1_2_3 h_S_) main_v16 main_c_5
  let main_v18 : IVec S_ 1 := andi main_v13 main_v17
  main_v18

def fn {F : FTy → Type} [FloatOps F] (main_arg0 : FVec F S4x64x64x64 .f32) (main_arg1 : FVec F S4x128x32x32 .f32) (main_arg2 : FVec F S4x64x64x64 .f32) (main_arg3 : FVec F S4x128x32x32 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  let main_v4 : FVec F S4x128x32x32 .f32 := Host.absf main_arg1
  let main_cst_0 : FVec F S_ .f32 := constant S_ .f32 0x7F800000#32
  let main_v5 : FVec F S4x128x32x32 .f32 := broadcastInDim S4x128x32x32 ![] bcast_S_S4x128x32x32 main_cst_0
  let main_v6 : IVec S4x128x32x32 1 := cmpf .olt main_v4 main_v5
  let main_c_1 : IVec S_ 1 := constantI S_ 1 1#1
  let main_v7 : IVec S_ 1 := (fun x v => Host.reduce IntOp.andi x v reducesTo_S4x128x32x32_S_d0_1_2_3 h_S_) main_v6 main_c_1
  let main_v8 : IVec S_ 1 := andi main_v3 main_v7
  let main_v9 : FVec F S4x64x64x64 .f32 := Host.absf main_arg2
  let main_cst_2 : FVec F S_ .f32 := constant S_ .f32 0x7F800000#32
  let main_v10 : FVec F S4x64x64x64 .f32 := broadcastInDim S4x64x64x64 ![] bcast_S_S4x64x64x64 main_cst_2
  let main_v11 : IVec S4x64x64x64 1 := cmpf .olt main_v9 main_v10
  let main_c_3 : IVec S_ 1 := constantI S_ 1 1#1
  let main_v12 : IVec S_ 1 := (fun x v => Host.reduce IntOp.andi x v reducesTo_S4x64x64x64_S_d0_1_2_3 h_S_) main_v11 main_c_3
  let main_v13 : IVec S_ 1 := andi main_v8 main_v12
  let main_v14 : FVec F S4x128x32x32 .f32 := Host.absf main_arg3
  let main_cst_4 : FVec F S_ .f32 := constant S_ .f32 0x7F800000#32
  let main_v15 : FVec F S4x128x32x32 .f32 := broadcastInDim S4x128x32x32 ![] bcast_S_S4x128x32x32 main_cst_4
  let main_v16 : IVec S4x128x32x32 1 := cmpf .olt main_v14 main_v15
  fn_part1 (F := F) main_v13 main_v16
-- ==== Kernel.lean ====
abbrev S4x64x64x64 : Shape := ⟨4, ![4, 64, 64, 64]⟩
abbrev S4x128x32x32 : Shape := ⟨4, ![4, 128, 32, 32]⟩
abbrev S4x64x4096 : Shape := ⟨3, ![4, 64, 4096]⟩
abbrev S4x128x1024 : Shape := ⟨3, ![4, 128, 1024]⟩
abbrev S16x8x128 : Shape := ⟨3, ![16, 8, 128]⟩
abbrev S1x8x128 : Shape := ⟨3, ![1, 8, 128]⟩
abbrev S4x64x256 : Shape := ⟨3, ![4, 64, 256]⟩
abbrev S4x64x512 : Shape := ⟨3, ![4, 64, 512]⟩
abbrev S4x256x512 : Shape := ⟨3, ![4, 256, 512]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩
abbrev S4x8x128 : Shape := ⟨3, ![4, 8, 128]⟩
abbrev S4x128x256 : Shape := ⟨3, ![4, 128, 256]⟩
abbrev S4x128x512 : Shape := ⟨3, ![4, 128, 512]⟩
abbrev S4x1x1 : Shape := ⟨3, ![4, 1, 1]⟩
abbrev S4 : Shape := ⟨1, ![4]⟩

abbrev nBuf : Space → Nat
  | .hbm => 25
  | .vmem => 8
  | .smem => 0
  | _ => 0

abbrev bufTy : (tb : Table) → Fin (tcTables nBuf tb) → BufTy
  | .hbm, ⟨0, _⟩ => ⟨S4x64x64x64, .f32⟩
  | .hbm, ⟨1, _⟩ => ⟨S4x128x32x32, .f32⟩
  | .hbm, ⟨2, _⟩ => ⟨S4x64x64x64, .f32⟩
  | .hbm, ⟨3, _⟩ => ⟨S4x128x32x32, .f32⟩
  | .hbm, ⟨4, _⟩ => ⟨S4x64x4096, .f32⟩
  | .hbm, ⟨5, _⟩ => ⟨S4x64x4096, .f32⟩
  | .hbm, ⟨6, _⟩ => ⟨S4x128x1024, .f32⟩
  | .hbm, ⟨7, _⟩ => ⟨S4x128x1024, .f32⟩
  | .hbm, ⟨8, _⟩ => ⟨S16x8x128, .f32⟩
  | .hbm, ⟨9, _⟩ => ⟨S16x1x1, .f32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S4x8x128, .f32⟩
  | .hbm, ⟨14, _⟩ => ⟨S4x1x1, .f32⟩
  | .hbm, ⟨15, _⟩ => ⟨S4, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S4x64x4096, .f32⟩
  | .local _ .vmem, ⟨1, _⟩ => ⟨S4x64x4096, .f32⟩
  | .local _ .vmem, ⟨2, _⟩ => ⟨S1x8x128, .f32⟩
  | .local _ .vmem, ⟨3, _⟩ => ⟨S1x8x128, .f32⟩
  | .local _ .vmem, ⟨4, _⟩ => ⟨S4x128x1024, .f32⟩
  | .local _ .vmem, ⟨5, _⟩ => ⟨S4x128x1024, .f32⟩
  | .local _ .vmem, ⟨6, _⟩ => ⟨S1x8x128, .f32⟩
  | .local _ .vmem, ⟨7, _⟩ => ⟨S1x8x128, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_mult2 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 3 → Nat :=
  let c0 : Index := 0#32
  let c0_1 : Index := 0#32
  let arg0 : BitVec 32 := BitVec.ofNat 32 (i 0).val
  let c256_i32 : BitVec 32 := 256#32
  let v3 : BitVec 32 := Scalar.muli arg0 c256_i32
  let v4 : BitVec 32 := v3
  let v7 : Index := Scalar.indexCast v4
  ![0, 0, v7.toNat]
def k0_off2 (i : grid0.Coords) : Fin 3 → Nat :=
  let c0_2 : Index := 0#32
  let c0_3 : Index := 0#32
  let arg1 : BitVec 32 := BitVec.ofNat 32 (i 1).val
  let c512_i32 : BitVec 32 := 512#32
  let v5 : BitVec 32 := Scalar.muli arg1 c512_i32
  let v6 : BitVec 32 := v5
  let v11 : Index := Scalar.indexCast v6
  ![0, 0, v11.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 2], ![false, false]⟩

def k1_mult1 (i : grid1.Coords) : BitVec 32 :=
  let arg0 : BitVec 32 := BitVec.ofNat 32 (i 0).val
  let c256_i32 : BitVec 32 := 256#32
  let v3 : BitVec 32 := Scalar.muli arg0 c256_i32
  v3
def k1_mult2 (i : grid1.Coords) : BitVec 32 :=
  let arg1 : BitVec 32 := BitVec.ofNat 32 (i 1).val
  let c512_i32 : BitVec 32 := 512#32
  let v5 : BitVec 32 := Scalar.muli arg1 c512_i32
  v5
def k1_off1 (i : grid1.Coords) : Fin 3 → Nat :=
  let c0 : Index := 0#32
  let c0_1 : Index := 0#32
  let arg0 : BitVec 32 := BitVec.ofNat 32 (i 0).val
  let c256_i32 : BitVec 32 := 256#32
  let v3 : BitVec 32 := Scalar.muli arg0 c256_i32
  let v4 : BitVec 32 := v3
  let v7 : Index := Scalar.indexCast v4
  ![0, 0, v7.toNat]
def k1_off2 (i : grid1.Coords) : Fin 3 → Nat :=
  let c0_2 : Index := 0#32
  let c0_3 : Index := 0#32
  let arg1 : BitVec 32 := BitVec.ofNat 32 (i 1).val
  let c512_i32 : BitVec 32 := 512#32
  let v5 : BitVec 32 := Scalar.muli arg1 c512_i32
  let v6 : BitVec 32 := v5
  let v11 : Index := Scalar.indexCast v6
  ![0, 0, v11.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4x128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S4x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S4x64x64x64_S4x64x4096 : S4x64x64x64.ShapeCasts S4x64x4096
  shapeCasts_S4x128x32x32_S4x128x1024 : S4x128x32x32.ShapeCasts S4x128x1024
  inb_S1x8x128_S1x8x128_0_0_0 : ∀ a, (![0, 0, 0] : Fin 3 → Nat) a + S1x8x128.size a ≤ S1x8x128.size a
  h_S1x8x128 : 0 < S1x8x128.numel
  h_S4x64x256 : 0 < S4x64x256.numel
  shapeCasts_S4x64x256_S4x64x256 : S4x64x256.ShapeCasts S4x64x256
  bitsLt_bf16_f32 : FTy.bits .bf16 < FTy.bits .f32
  h_S4x64x512 : 0 < S4x64x512.numel
  shapeCasts_S4x64x512_S4x64x512 : S4x64x512.ShapeCasts S4x64x512
  reduces_S4x256x512_S256x512 : S4x256x512.Reduces [0] S256x512
  shapeCasts_S256x512_S1x256x512 : S256x512.ShapeCasts S1x256x512
  broadcasts_S1x256x512_S4x256x512 : S1x256x512.Broadcasts S4x256x512
  reduces_S256x512_S256 : S256x512.Reduces [1] S256
  shapeCasts_S256_S256x1 : S256.ShapeCasts S256x1
  reduces_S256x1_S1 : S256x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  h_S4x128x256 : 0 < S4x128x256.numel
  shapeCasts_S4x128x256_S4x128x256 : S4x128x256.ShapeCasts S4x128x256
  h_S4x128x512 : 0 < S4x128x512.numel
  shapeCasts_S4x128x512_S4x128x512 : S4x128x512.ShapeCasts S4x128x512
  slices_S4x8x128_S4x1x1_0_0_0 : S4x8x128.Slices ![0, 0, 0] S4x1x1
  shapeCasts_S4x1x1_S4 : S4x1x1.ShapeCasts S4
  reducesTo_S4_S_d0 : S4.ReducesTo [0] S_
  dot_S4x64x256_S4x64x512_S4x256x512_1_1_2_2_0_0_wf : DotDims.WF S4x64x256 S4x64x512 S4x256x512 [1] [1] [2] [2] [0] [0]
  dot_S4x128x256_S4x128x512_S4x256x512_1_1_2_2_0_0_wf : DotDims.WF S4x128x256 S4x128x512 S4x256x512 [1] [1] [2] [2] [0] [0]
  hrank0 : 0 < grid0.rank
  k0_mult1_dvd : ∀ i : grid0.Coords, 256 ∣ (k0_mult1 i).toNat
  k0_mult2_dvd : ∀ i : grid0.Coords, 512 ∣ (k0_mult2 i).toNat
  k0_off1_inb : ∀ i : grid0.Coords, ∀ a, (k0_off1 i) a + S4x64x256.size a ≤ S4x64x4096.size a
  k0_off2_inb : ∀ i : grid0.Coords, ∀ a, (k0_off2 i) a + S4x64x512.size a ≤ S4x64x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x64x4096.size a ≤ S4x64x4096.size a
  hwx0_0 : ∀ i : grid0.Coords, EltTy.bits .f32 = 32 ∨ (Rect.block (s := S4x64x4096) S4x64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x4096.size a ≤ S4x64x4096.size a
  hwx0_1 : ∀ i : grid0.Coords, EltTy.bits .f32 = 32 ∨ (Rect.block (s := S4x64x4096) S4x64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)
  hrank1 : 0 < grid1.rank
  k1_mult1_dvd : ∀ i : grid1.Coords, 256 ∣ (k1_mult1 i).toNat
  k1_mult2_dvd : ∀ i : grid1.Coords, 512 ∣ (k1_mult2 i).toNat
  k1_off1_inb : ∀ i : grid1.Coords, ∀ a, (k1_off1 i) a + S4x128x256.size a ≤ S4x128x1024.size a
  k1_off2_inb : ∀ i : grid1.Coords, ∀ a, (k1_off2 i) a + S4x128x512.size a ≤ S4x128x1024.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x128x1024.size a ≤ S4x128x1024.size a
  hwx1_0 : ∀ i : grid1.Coords, EltTy.bits .f32 = 32 ∨ (Rect.block (s := S4x128x1024) S4x128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x1024.size a ≤ S4x128x1024.size a
  hwx1_1 : ∀ i : grid1.Coords, EltTy.bits .f32 = 32 ∨ (Rect.block (s := S4x128x1024) S4x128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x128.size a ≤ S4x8x128.size a
  hwx1_2 : ∀ i : grid1.Coords, EltTy.bits .f32 = 32 ∨ (Rect.block (s := S4x8x128) S1x8x128.size (cc1_transform_2 i) (hinb1_2 i)).WholeWords (EltTy.packing .f32)

variable [Facts₀]

def dot_S4x64x256_S4x64x512_S4x256x512_1_1_2_2_0_0 : DotDims S4x64x256 S4x64x512 S4x256x512 where
  lhsContracting := [1]
  rhsContracting := [1]
  lhsNonContracting := [2]
  rhsNonContracting := [2]
  lhsBatch := [0]
  rhsBatch := [0]
  wf := dot_S4x64x256_S4x64x512_S4x256x512_1_1_2_2_0_0_wf
def dot_S4x128x256_S4x128x512_S4x256x512_1_1_2_2_0_0 : DotDims S4x128x256 S4x128x512 S4x256x512 where
  lhsContracting := [1]
  rhsContracting := [1]
  lhsNonContracting := [2]
  rhsNonContracting := [2]
  lhsBatch := [0]
  rhsBatch := [0]
  wf := dot_S4x128x256_S4x128x512_S4x256x512_1_1_2_2_0_0_wf

abbrev win0_0 : Pipeline.Window sig grid0 :=
  Pipeline.Window.ofSpec (Memref.whole main_v0) S4x64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S4x128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4x128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x64x64x64 : Shape := ⟨4, ![4, 64, 64, 64]⟩
abbrev S4x128x32x32 : Shape := ⟨4, ![4, 128, 32, 32]⟩
abbrev S4x64x4096 : Shape := ⟨3, ![4, 64, 4096]⟩
abbrev S4x4096x4096 : Shape := ⟨3, ![4, 4096, 4096]⟩
abbrev S_ : Shape := ⟨0, ![]⟩
abbrev S4096x4096 : Shape := ⟨2, ![4096, 4096]⟩
abbrev S1x4096x4096 : Shape := ⟨3, ![1, 4096, 4096]⟩
abbrev S4x128x1024 : Shape := ⟨3, ![4, 128, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S4x128x32x32, .f32⟩
  | .hbm, ⟨2, _⟩ => ⟨S4x64x64x64, .f32⟩
  | .hbm, ⟨3, _⟩ => ⟨S4x128x32x32, .f32⟩
  | .hbm, ⟨4, _⟩ => ⟨S4x64x4096, .f32⟩
  | .hbm, ⟨5, _⟩ => ⟨S4x4096x4096, .f32⟩
  | .hbm, ⟨6, _⟩ => ⟨S_, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S1x4096x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4096x4096, .f32⟩
  | .hbm, ⟨17, _⟩ => ⟨S1x4096x4096, .f32⟩
  | .hbm, ⟨18, _⟩ => ⟨S4x4096x4096, .f32⟩
  | .hbm, ⟨19, _⟩ => ⟨S4x4096x4096, .f32⟩
  | .hbm, ⟨20, _⟩ => ⟨S4x64x4096, .f32⟩
  | .hbm, ⟨21, _⟩ => ⟨S4x4096x4096, .f32⟩
  | .hbm, ⟨22, _⟩ => ⟨S_, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S1x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4096x4096, .f32⟩
  | .hbm, ⟨33, _⟩ => ⟨S1x4096x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x128x1024, .f32⟩
  | .hbm, ⟨43, _⟩ => ⟨S4x1024x1024, .f32⟩
  | .hbm, ⟨44, _⟩ => ⟨S_, .f32⟩
  | .hbm, ⟨45, _⟩ => ⟨S1024x1024, .f32⟩
  | .hbm, ⟨46, _⟩ => ⟨S_, .f32⟩
  | .hbm, ⟨47, _⟩ => ⟨S1024x1024, .f32⟩
  | .hbm, ⟨48, _⟩ => ⟨S1024x1024, .f32⟩
  | .hbm, ⟨49, _⟩ => ⟨S1x1024x1024, .f32⟩
  | .hbm, ⟨50, _⟩ => ⟨S4x1024x1024, .f32⟩
  | .hbm, ⟨51, _⟩ => ⟨S4x1024x1024, .f32⟩
  | .hbm, ⟨52, _⟩ => ⟨S4x1024x1024, .f32⟩
  | .hbm, ⟨53, _⟩ => ⟨S_, .f32⟩
  | .hbm, ⟨54, _⟩ => ⟨S1024x1024, .f32⟩
  | .hbm, ⟨55, _⟩ => ⟨S1x1024x1024, .f32⟩
  | .hbm, ⟨56, _⟩ => ⟨S4x1024x1024, .f32⟩
  | .hbm, ⟨57, _⟩ => ⟨S4x1024x1024, .f32⟩
  | .hbm, ⟨58, _⟩ => ⟨S4x128x1024, .f32⟩
  | .hbm, ⟨59, _⟩ => ⟨S4x1024x1024, .f32⟩
  | .hbm, ⟨60, _⟩ => ⟨S_, .f32⟩
  | .hbm, ⟨61, _⟩ => ⟨S1024x1024, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S1x1024x1024, .f32⟩
  | .hbm, ⟨66, _⟩ => ⟨S4x1024x1024, .f32⟩
  | .hbm, ⟨67, _⟩ => ⟨S4x1024x1024, .f32⟩
  | .hbm, ⟨68, _⟩ => ⟨S4x1024x1024, .f32⟩
  | .hbm, ⟨69, _⟩ => ⟨S_, .f32⟩
  | .hbm, ⟨70, _⟩ => ⟨S1024x1024, .f32⟩
  | .hbm, ⟨71, _⟩ => ⟨S1x1024x1024, .f32⟩
  | .hbm, ⟨72, _⟩ => ⟨S4x1024x1024, .f32⟩
  | .hbm, ⟨73, _⟩ => ⟨S4x1024x1024, .f32⟩
  | .hbm, ⟨74, _⟩ => ⟨S4x1024x1024, .f32⟩
  | .hbm, ⟨75, _⟩ => ⟨S4x1024x1024, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  shapeCasts_S4x64x64x64_S4x64x4096 : S4x64x64x64.ShapeCasts S4x64x4096
  reducesTo_S4x4096x4096_S4096x4096_d0 : S4x4096x4096.ReducesTo [0] S4096x4096
  h_S_ : 0 < S_.numel
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S_d0_1_2 : S4x4096x4096.ReducesTo [0, 1, 2] S_
  shapeCasts_S4x128x32x32_S4x128x1024 : S4x128x32x32.ShapeCasts S4x128x1024
  reducesTo_S4x1024x1024_S1024x1024_d0 : S4x1024x1024.ReducesTo [0] S1024x1024
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S4x1024x1024_0_1_2 : S1x1024x1024.BroadcastsInDim S4x1024x1024 (![0, 1, 2] : Fin 3 → Fin S4x1024x1024.rank)
  reducesTo_S4x1024x1024_S_d0_1_2 : S4x1024x1024.ReducesTo [0, 1, 2] S_
  dot_S4x64x4096_S4x64x4096_S4x4096x4096_1_1_2_2_0_0_wf : DotDims.WF S4x64x4096 S4x64x4096 S4x4096x4096 [1] [1] [2] [2] [0] [0]
  dot_S4x128x1024_S4x128x1024_S4x1024x1024_1_1_2_2_0_0_wf : DotDims.WF S4x128x1024 S4x128x1024 S4x1024x1024 [1] [1] [2] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf
def dot_S4x128x1024_S4x128x1024_S4x1024x1024_1_1_2_2_0_0 : DotDims S4x128x1024 S4x128x1024 S4x1024x1024 where
  lhsContracting := [1]
  rhsContracting := [1]
  lhsNonContracting := [2]
  rhsNonContracting := [2]
  lhsBatch := [0]
  rhsBatch := [0]
  wf := dot_S4x128x1024_S4x128x1024_S4x1024x1024_1_1_2_2_0_0_wf

class Facts : Prop extends Facts₀ where

variable [Facts]
-- ==== Proof.KRun.lean ====
/-
  The idealized kernel's whole run, with its RESULT named: every weakly fair execution of @main terminates, and the
  final memory holds, at the result buffer, the contents of the last segment boundary — the host operations after the
  second pallas_call applied to what that call's write-backs leave — and the four argument arrays as launched.
-/
import proofs.«170279_j8040178778926_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments unchanged. -/
theorem run : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.KRun

end
-- ==== Proof.Tail.lean ====
/-
  The host side of the idealized kernel's program, read back from the result.

  The result is `((s0 / 2^26) + (s1 / 2^22)) / 2`, where `s0` is the host's sum of entry (·, 0, 0) of the first
  pallas_call's accumulator array (one entry per row of tiles) and `s1` the same for the second; the feature arrays
  the calls read are the arguments reshaped to [4, C, H·W].
-/
import proofs.«170279_j8040178778926_2_alg».proof.Proof.Gen.KernelIdeal.Frame
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ) (ρ : Dev nD → PrngReg)

/-- The host's sum over the rows of tiles of an accumulator array's entries (·, 0, 0): first pallas_call, 16 rows. -/
def hsum0 (acc : (⟨S16x8x128, .f32⟩ : BufTy).Contents (Elt F)) : (⟨S_, .f32⟩ : BufTy).Contents (Elt F) :=
  Host.reduceAdd (shapeCast S16 (extractStridedSlice S16x1x1 ![0, 0, 0] acc slices_S16x8x128_S16x1x1_0_0_0) shapeCasts_S16x1x1_S16)
    (constant S_ .f32 0x00000000#32) reducesTo_S16_S_d0 h_S_
/-- Second pallas_call, 4 rows of tiles. -/
def hsum1 (acc : (⟨S4x8x128, .f32⟩ : BufTy).Contents (Elt F)) : (⟨S_, .f32⟩ : BufTy).Contents (Elt F) :=
  Host.reduceAdd (shapeCast S4 (extractStridedSlice S4x1x1 ![0, 0, 0] acc slices_S4x8x128_S4x1x1_0_0_0) shapeCasts_S4x1x1_S4)
    (constant S_ .f32 0x00000000#32) reducesTo_S4_S_d0 h_S_

/-- The last stretch of host operations: the two means and their average. -/
def finish (s0 s1 : (⟨S_, .f32⟩ : BufTy).Contents (Elt F)) : (⟨S_, .f32⟩ : BufTy).Contents (Elt F) :=
  Host.divf (addf (Host.divf s0 (constant S_ .f32 0x4C800000#32)) (Host.divf s1 (constant S_ .f32 0x4A800000#32)))
    (constant S_ .f32 0x40000000#32)

theorem w5_result (c : Dev nD) :
    W5 m ρ c (Proc.devRef .tc main_v15)
      = finish (W4 m ρ c (Proc.devRef .tc main_v7)) (hsum1 (W4 m ρ c (Proc.devRef .tc main_v8))) := by
  show StableHlo.after hostOps2 (W4 m ρ c) (Proc.devRef .tc main_v15) = _
  after_results
  rfl

theorem w4_v7 (c : Dev nD) : W4 m ρ c (Proc.devRef .tc main_v7) = W3 m ρ c (Proc.devRef .tc main_v7) :=
  W4_of_ne m ρ c main_v7 (by decide)

theorem w3_v7 (c : Dev nD) : W3 m ρ c (Proc.devRef .tc main_v7) = hsum0 (W2 m ρ c (Proc.devRef .tc main_v4)) := by
  show StableHlo.after hostOps1 (W2 m ρ c) (Proc.devRef .tc main_v7) = _
  after_results
  rfl

theorem w4_v8 (c : Dev nD) : W4 m ρ c (Proc.devRef .tc main_v8) = (dat1 (V3 m ρ) c).arrAt 2 cfg1.N := W4_arr m ρ c 2
theorem w2_v4 (c : Dev nD) : W2 m ρ c (Proc.devRef .tc main_v4) = (dat0 (V1 m ρ) c).arrAt 2 cfg0.N := W2_arr m ρ c 2

/-- The result, in one line: the finish of the two host sums of the two final accumulator arrays. -/
theorem result_eq (c : Dev nD) :
    W5 m ρ c (Proc.devRef .tc main_v15)
      = finish (hsum0 ((dat0 (V1 m ρ) c).arrAt 2 cfg0.N)) (hsum1 ((dat1 (V3 m ρ) c).arrAt 2 cfg1.N)) := by
  rw [w5_result, w4_v7, w3_v7, w4_v8, w2_v4]

/-! The feature arrays each pallas_call is entered with: the arguments, reshaped. -/

theorem v1_v0 (c : Dev nD) : V1 m ρ c main_v0 = shapeCast S4x64x4096 (m ((c : Thread nD τ).loc main_arg0)) shapeCasts_S4x64x64x64_S4x64x4096 := by
  show StableHlo.after hostOps0 (W0 m ρ c) (Proc.devRef .tc main_v0) = _
  after_results
  rfl
theorem v1_v1 (c : Dev nD) : V1 m ρ c main_v1 = shapeCast S4x64x4096 (m ((c : Thread nD τ).loc main_arg2)) shapeCasts_S4x64x64x64_S4x64x4096 := by
  show StableHlo.after hostOps0 (W0 m ρ c) (Proc.devRef .tc main_v1) = _
  after_results
  rfl

theorem w1_v2 (c : Dev nD) : W1 m ρ c (Proc.devRef .tc main_v2) = shapeCast S4x128x1024 (m ((c : Thread nD τ).loc main_arg1)) shapeCasts_S4x128x32x32_S4x128x1024 := by
  show StableHlo.after hostOps0 (W0 m ρ c) (Proc.devRef .tc main_v2) = _
  after_results
  rfl
theorem w1_v3 (c : Dev nD) : W1 m ρ c (Proc.devRef .tc main_v3) = shapeCast S4x128x1024 (m ((c : Thread nD τ).loc main_arg3)) shapeCasts_S4x128x32x32_S4x128x1024 := by
  show StableHlo.after hostOps0 (W0 m ρ c) (Proc.devRef .tc main_v3) = _
  after_results
  rfl

theorem v3_v2 (c : Dev nD) : V3 m ρ c main_v2 = shapeCast S4x128x1024 (m ((c : Thread nD τ).loc main_arg1)) shapeCasts_S4x128x32x32_S4x128x1024 := by
  have e1 : W3 m ρ c (Proc.devRef .tc main_v2) = W2 m ρ c (Proc.devRef .tc main_v2) := by
    show StableHlo.after hostOps1 (W2 m ρ c) (Proc.devRef .tc main_v2) = _
    after_results
  exact e1.trans ((W2_of_ne m ρ c main_v2 (by decide)).trans (w1_v2 m ρ c))
theorem v3_v3 (c : Dev nD) : V3 m ρ c main_v3 = shapeCast S4x128x1024 (m ((c : Thread nD τ).loc main_arg3)) shapeCasts_S4x128x32x32_S4x128x1024 := by
  have e1 : W3 m ρ c (Proc.devRef .tc main_v3) = W2 m ρ c (Proc.devRef .tc main_v3) := by
    show StableHlo.after hostOps1 (W2 m ρ c) (Proc.devRef .tc main_v3) = _
    after_results
  exact e1.trans ((W2_of_ne m ρ c main_v3 (by decide)).trans (w1_v3 m ρ c))

end Cert.KernelIdeal.Tail

end
-- ==== Proof.Pieces0.lean ====
/-
  What one grid point of the first pallas_call leaves in the accumulator block, as a value.

  The body loads a 256-column slice and a 512-column slice of each feature array (the row and column positions of the
  point's tile), forms from them the tile's contribution, and adds it to the block. At the first column tile of a row
  of tiles the block is first overwritten with zeros, so the body leaves "zeros + contribution"; at every other point it
  leaves "what the block held + contribution".
-/
import proofs.«170279_j8040178778926_2_alg».proof.Proof.Gen.KernelIdeal.Frame
import Idealize.ShloMosaic.Lib.Pipeline.Value

set_option maxRecDepth 16384

noncomputable section

namespace Cert.KernelIdeal.Pieces0

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl

/-- The row-position slice of a feature array at grid point `i`: 256 columns from column `256 * i₀`. -/
abbrev rowsOf (i : grid0.Coords) (x : Vec F S4x64x4096 .f32) : Vec F S4x64x256 .f32 :=
  View.ld x (Rect.unit (s := S4x64x4096) (k0_off1 i) S4x64x256.size (k0_off1_inb i))
/-- The column-position slice at grid point `i`: 512 columns from column `512 * i₁`. -/
abbrev colsOf (i : grid0.Coords) (x : Vec F S4x64x4096 .f32) : Vec F S4x64x512 .f32 :=
  View.ld x (Rect.unit (s := S4x64x4096) (k0_off2 i) S4x64x512.size (k0_off2_inb i))

/-- Away from the first column tile the body leaves the block's contents plus the tile's contribution. -/
theorem out_B (c : Dev nD) (i : grid0.Coords) (a2 : Memref sig .tc .vmem S4x64x4096 .f32) (h2 : a2.IsWhole)
    (a3 : Memref sig .tc .vmem S4x64x4096 .f32) (h3 : a3.IsWhole) (a4 : Memref sig .tc .vmem S1x8x128 .f32) (h4 : a4.IsWhole)
    (hc : ¬cond0_0 i) (x0 x1 : Vec F S4x64x4096 .f32) (xo : Vec F S1x8x128 .f32) :
    out0_B_2 c i a2 h2 a3 h3 a4 h4 hc x0 x1 xo
      = k0_pay1 (k0_pay3 (rowsOf i x0) (colsOf i x0)) (k0_pay4 (rowsOf i x1) (colsOf i x1)) xo := by
  unfold out0_B_2
  rw [View.read_writes_eq_canon _ _ _ (cover0_B_2 c i a2 h2 a3 h3 a4 h4 hc x0 x1 xo)]
  unfold kernelRun0_B
  dsimp only
  sl_unfold_run_names
  rw [View.canon_unit_zero hz3]
  simp only [View.readAt_eq_ld, h2.read_unread, h3.read_unread, h4.read_unread, View.ld_unit_zero (S := S1x8x128) hz3]

/-- At the first column tile the body leaves zeros plus the tile's contribution. -/
theorem out_A (c : Dev nD) (i : grid0.Coords) (a2 : Memref sig .tc .vmem S4x64x4096 .f32) (h2 : a2.IsWhole)
    (a3 : Memref sig .tc .vmem S4x64x4096 .f32) (h3 : a3.IsWhole) (a4 : Memref sig .tc .vmem S1x8x128 .f32) (h4 : a4.IsWhole)
    (hc : cond0_0 i) (x0 x1 : Vec F S4x64x4096 .f32) :
    out0_A_2 c i a2 h2 a3 h3 a4 h4 hc x0 x1
      = k0_pay1 (k0_pay3 (rowsOf i x0) (colsOf i x0)) (k0_pay4 (rowsOf i x1) (colsOf i x1)) (k0_pay2 (F := F)) := by
  unfold out0_A_2
  rw [View.read_writes_eq_canon _ _ _ (cover0_A_2 c i a2 h2 a3 h3 a4 h4 hc x0 x1)]
  unfold kernelRun0_A
  dsimp only
  sl_unfold_run_names
  rw [View.canon_cons_unit_zero (S := S1x8x128) hz3]
  simp only [View.readAt_eq_ld, h2.read_unread, h3.read_unread, View.readCov_unit_zero (S := S1x8x128) _ hz3]

end Cert.KernelIdeal.Pieces0

end
-- ==== Proof.Spec.lean ====
/-
  The mathematics both programs compute, stated once over the extended reals.

  A feature array of one level is `r : [4, C, N]` (batch, channel, position). Its affinity at a pair of positions
  `(I, J)` and batch entry `b` is the Gram entry `∑ c, r[b, c, I] * r[b, c, J]`; the affinities of the four batch
  entries at one pair `(I, J)` are normalised by a softmax ACROSS THE BATCH: `exp (g b - max_b' g b') / ∑ k, exp (g k - max_b' g b')`,
  the maximum taken from `-∞`. The loss of a level is the sum, over all `(b, I, J)`, of the absolute difference
  `|softmax(gram r1) - softmax(gram r2)|`, written as `max d (-d)`.

  Everything is stated for a rectangular pair of position blocks (`A` row positions against `B` column positions), so
  that one definition serves a whole `N × N` plane and a `256 × 512` tile of it.
-/
import Idealize.ShloMosaic.PureOps.Ideal
import Idealize.ShloMosaic.PureOps.Ideal.Laws
import Idealize.ShloMosaic.Lib.ValueIdx

noncomputable section

namespace Cert.Affinity

open Idealize.ShloMosaic Idealize.ShloMosaic.ValueIdx

/-- The word `0xFF800000`, which denotes `-∞`: the value every maximum starts from. It is never evaluated. -/
abbrev negInf : EReal := Ideal.ofBits .f32 0xFF800000#32
/-- The word `0x00000000`, which denotes `0`: the value every host sum starts from. -/
abbrev zeroW : EReal := Ideal.ofBits .f32 0x00000000#32

/-- The largest of four affinities, from `-∞`. -/
def bmax (g : Fin 4 → EReal) : EReal := (Finset.univ : Finset (Fin 4)).fold max negInf g

/-- Softmax across the batch of four: entry `b` of `exp (g - max g) / ∑ exp (g - max g)`. -/
def smax (g : Fin 4 → EReal) (b : Fin 4) : EReal :=
  Ideal.div (Ideal.exp (g b - bmax g)) (∑ k : Fin 4, Ideal.exp (g k - bmax g))

/-- `|softmax g1 - softmax g2|` at batch entry `b`, the absolute value as `max d (-d)`. -/
def absdiff (g1 g2 : Fin 4 → EReal) (b : Fin 4) : EReal :=
  max (smax g1 b - smax g2 b) (-(smax g1 b - smax g2 b))

/-- The Gram entries of the four batch entries at row position `i` of `p` and column position `j` of `q`. -/
def gram {C A B : ℕ} (p : (⟨3, ![4, C, A]⟩ : Shape).Idx → EReal) (q : (⟨3, ![4, C, B]⟩ : Shape).Idx → EReal)
    (i : Fin A) (j : Fin B) (b : Fin 4) : EReal :=
  ∑ c : Fin C, p (ix3 b c i) * q (ix3 b c j)

/-- One term of the loss: batch entry `b`, row position `i`, column position `j`, of the first feature array's row and
    column blocks `p1`, `q1` against the second's `p2`, `q2`. -/
def pcell {C A B : ℕ} (p1 : (⟨3, ![4, C, A]⟩ : Shape).Idx → EReal) (q1 : (⟨3, ![4, C, B]⟩ : Shape).Idx → EReal)
    (p2 : (⟨3, ![4, C, A]⟩ : Shape).Idx → EReal) (q2 : (⟨3, ![4, C, B]⟩ : Shape).Idx → EReal)
    (b : Fin 4) (i : Fin A) (j : Fin B) : EReal :=
  absdiff (gram p1 q1 i j) (gram p2 q2 i j) b

/-- The terms of an `A × B` block of positions summed: rows outermost, then columns, then the batch. -/
def tileSum {C A B : ℕ} (p1 : (⟨3, ![4, C, A]⟩ : Shape).Idx → EReal) (q1 : (⟨3, ![4, C, B]⟩ : Shape).Idx → EReal)
    (p2 : (⟨3, ![4, C, A]⟩ : Shape).Idx → EReal) (q2 : (⟨3, ![4, C, B]⟩ : Shape).Idx → EReal) : EReal :=
  ∑ i : Fin A, ∑ j : Fin B, ∑ b : Fin 4, pcell p1 q1 p2 q2 b i j

/-- The loss numerator of a level: every term of the whole `N × N` plane of positions. -/
def levelTotal {C N : ℕ} (r1 r2 : (⟨3, ![4, C, N]⟩ : Shape).Idx → EReal) : EReal :=
  tileSum r1 r1 r2 r2

end Cert.Affinity

end
-- ==== Proof.Sums.lean ====
/-
  Sums over positions, cut into tiles.

  A sum over `N = a * n` positions is the sum over `a` blocks of the sum over the `n` positions of each block; a sum
  over a plane of positions is therefore the sum over the tiles of the plane of each tile's sum, whatever the order in
  which blocks and positions are visited (addition here is commutative and associative). The second part is the running
  sum a row of tiles leaves: started afresh from a given value at the first column tile of every row of tiles, it holds,
  at the last column tile, that value plus the sum of the row's tiles.
-/
import Mathlib.Algebra.BigOperators.Fin
import Mathlib.Algebra.BigOperators.Group.Finset.Basic
import Mathlib.Logic.Equiv.Fin.Basic

namespace Cert.Affinity.Sums

open Finset

theorem blk_lt {a n N : ℕ} (h : a * n = N) (t : Fin a) (i : Fin n) : t.val * n + i.val < N := by
  subst h
  calc t.val * n + i.val < t.val * n + n := Nat.add_lt_add_left i.isLt _
    _ = (t.val + 1) * n := (Nat.succ_mul _ _).symm
    _ ≤ a * n := Nat.mul_le_mul_right n t.isLt

/-- Position `i` of block `t`. -/
def blkIdx {a n N : ℕ} (h : a * n = N) (t : Fin a) (i : Fin n) : Fin N := ⟨t.val * n + i.val, blk_lt h t i⟩

@[simp] theorem blkIdx_val {a n N : ℕ} (h : a * n = N) (t : Fin a) (i : Fin n) : (blkIdx h t i).val = t.val * n + i.val := rfl

/-- A sum over all positions is the sum over the blocks of the sums over each block. -/
theorem sum_blocks {M : Type*} [AddCommMonoid M] {a n N : ℕ} (h : a * n = N) (f : Fin N → M) :
    ∑ I : Fin N, f I = ∑ t : Fin a, ∑ i : Fin n, f (blkIdx h t i) := by
  subst h
  rw [← (finProdFinEquiv (m := a) (n := n)).sum_comp, Fintype.sum_prod_type]
  refine Finset.sum_congr rfl fun t _ => Finset.sum_congr rfl fun i _ => congrArg f (Fin.ext ?_)
  show i.val + n * t.val = t.val * n + i.val
  rw [Nat.mul_comm, Nat.add_comm]

/-- A sum over a plane of positions is the sum over its tiles (row of tiles, then column tile) of each tile's sum
    (rows of the tile, then columns). -/
theorem sum_tiles {M : Type*} [AddCommMonoid M] {a n N k c N' : ℕ} (h : a * n = N) (h' : k * c = N') (f : Fin N → Fin N' → M) :
    ∑ I : Fin N, ∑ J : Fin N', f I J
      = ∑ t : Fin a, ∑ s : Fin k, ∑ i : Fin n, ∑ j : Fin c, f (blkIdx h t i) (blkIdx h' s j) := by
  rw [sum_blocks h]
  refine Finset.sum_congr rfl fun t _ => ?_
  exact (Finset.sum_congr rfl fun i _ => sum_blocks h' (f (blkIdx h t i))).trans Finset.sum_comm

/-- The running sum along the grid: at a position divisible by `p` (the first column tile of a row of tiles) it restarts
    from `z`, elsewhere it adds the position's term to what the position before left. -/
def rowRun {M : Type*} [AddCommMonoid M] (z : M) (p : ℕ) (T : ℕ → M) : ℕ → M
  | 0 => z + T 0
  | n + 1 => if (n + 1) % p = 0 then z + T (n + 1) else rowRun z p T n + T (n + 1)

theorem rowRun_first {M : Type*} [AddCommMonoid M] (z : M) (p : ℕ) (T : ℕ → M) (n : ℕ) (h : n % p = 0) :
    rowRun z p T n = z + T n := by
  cases n with
  | zero => rfl
  | succ n => exact if_pos h

theorem rowRun_next {M : Type*} [AddCommMonoid M] (z : M) (p : ℕ) (T : ℕ → M) (n : ℕ) (h : ¬(n + 1) % p = 0) :
    rowRun z p T (n + 1) = rowRun z p T n + T (n + 1) := if_neg h

/-- Column tile `k` of row of tiles `a` holds `z` plus the row's tiles up to `k`. -/
theorem rowRun_eq {M : Type*} [AddCommMonoid M] (z : M) (p : ℕ) (T : ℕ → M) (a : ℕ) :
    ∀ k, k < p → rowRun z p T (a * p + k) = z + ∑ j ∈ Finset.range (k + 1), T (a * p + j)
  | 0, hk => by
    rw [rowRun_first z p T (a * p + 0) (by simp), Finset.sum_range_one]
  | k + 1, hk => by
    have hne : ¬(a * p + k + 1) % p = 0 := by
      rw [Nat.add_assoc, Nat.mul_add_mod_self_right, Nat.mod_eq_of_lt hk]; exact Nat.succ_ne_zero k
    rw [show a * p + (k + 1) = a * p + k + 1 from rfl, rowRun_next z p T _ hne, rowRun_eq z p T a k (Nat.lt_of_succ_lt hk),
      Finset.sum_range_succ _ (k + 1), add_assoc]
    rfl

/-- So the last column tile of a row holds `z` plus the sum of all the row's tiles. -/
theorem rowRun_last {M : Type*} [AddCommMonoid M] (z : M) (p : ℕ) (hp : 0 < p) (T : ℕ → M) (a : ℕ) :
    rowRun z p T (a * p + (p - 1)) = z + ∑ s : Fin p, T (a * p + s.val) := by
  rw [rowRun_eq z p T a (p - 1) (Nat.sub_lt hp Nat.one_pos), Nat.sub_add_cancel hp, Finset.sum_range]

end Cert.Affinity.Sums
-- ==== Proof.Blocks0.lean ====
/-
  Where a grid point's tile sits in the plane of positions (first pallas_call).

  Grid point `t` of the 16 × 8 grid is row of tiles `t / 8`, column tile `t % 8`. Its row slice of a feature array holds
  positions `(t / 8) * 256 + r`, its column slice positions `(t % 8) * 512 + s`; so the tile's contribution is the sum of
  the loss terms of exactly those position pairs, and the contributions of all 128 tiles add up to the whole plane's.
-/
import proofs.«170279_j8040178778926_2_alg».proof.Proof.Pieces0
import proofs.«170279_j8040178778926_2_alg».proof.Proof.Spec
import proofs.«170279_j8040178778926_2_alg».proof.Proof.Sums

set_option maxRecDepth 16384

noncomputable section

namespace Cert.KernelIdeal.Blocks0

open Cert.KernelIdeal Cert.KernelIdeal.Gen Cert.KernelIdeal.Pieces0 Cert.Affinity Cert.Affinity.Sums
open Idealize.ShloMosaic Idealize.ShloMosaic.ValueIdx Idealize.ShloMosaic.TcCoe Idealize.SL.Sem

theorem hrows : 16 * 256 = 4096 := rfl
theorem hcols : 8 * 512 = 4096 := rfl

/-- The printed offset chains, decided over the grid: the row slice starts at column `(t / 8) * 256`, the column slice
    at column `(t % 8) * 512`. -/
theorem off_facts : ∀ t : Fin cfg0.N, k0_off1 (grid0.coords t) = ![0, 0, t.val / 8 * 256] ∧ k0_off2 (grid0.coords t) = ![0, 0, t.val % 8 * 512] :=
  (by decide +kernel : ∀ t : Fin grid0.N, k0_off1 (grid0.coords t) = ![0, 0, t.val / 8 * 256] ∧ k0_off2 (grid0.coords t) = ![0, 0, t.val % 8 * 512])

theorem tN (t : Fin cfg0.N) : t.val < 128 := lt_of_lt_of_eq t.isLt (show cfg0.N = 128 from N_0)

/-- The row of tiles and the column tile of a grid point. -/
def rowOf (t : Fin cfg0.N) : Fin 16 := ⟨t.val / 8, by have := tN t; omega⟩
def colOf (t : Fin cfg0.N) : Fin 8 := ⟨t.val % 8, by omega⟩

variable {F : FTy → Type} [FloatOps F]

/-- The row slice at an index: position `r` of the tile's rows is position `(t / 8) * 256 + r` of the array. -/
theorem rows_at (t : Fin cfg0.N) (X : Vec F S4x64x4096 .f32) (b : Fin 4) (ch : Fin 64) (r : Fin 256) :
    rowsOf (grid0.coords t) X (ix3 b ch r) = X (ix3 b ch (blkIdx hrows (rowOf t) r)) := by
  show X ((Rect.unit (s := S4x64x4096) (k0_off1 (grid0.coords t)) S4x64x256.size (k0_off1_inb (grid0.coords t))).idx (ix3 b ch r)) = _
  refine congrArg X (funext fun a => Fin.ext ?_)
  have e := (off_facts t).1
  match a with
  | ⟨0, _⟩ => show k0_off1 (grid0.coords t) 0 + 1 * b.val = b.val; rw [e]; show 0 + 1 * b.val = b.val; omega
  | ⟨1, _⟩ => show k0_off1 (grid0.coords t) 1 + 1 * ch.val = ch.val; rw [e]; show 0 + 1 * ch.val = ch.val; omega
  | ⟨2, _⟩ => show k0_off1 (grid0.coords t) 2 + 1 * r.val = t.val / 8 * 256 + r.val; rw [e]; show t.val / 8 * 256 + 1 * r.val = _; omega

/-- The column slice at an index: position `s` of the tile's columns is position `(t % 8) * 512 + s` of the array. -/
theorem cols_at (t : Fin cfg0.N) (X : Vec F S4x64x4096 .f32) (b : Fin 4) (ch : Fin 64) (s : Fin 512) :
    colsOf (grid0.coords t) X (ix3 b ch s) = X (ix3 b ch (blkIdx hcols (colOf t) s)) := by
  show X ((Rect.unit (s := S4x64x4096) (k0_off2 (grid0.coords t)) S4x64x512.size (k0_off2_inb (grid0.coords t))).idx (ix3 b ch s)) = _
  refine congrArg X (funext fun a => Fin.ext ?_)
  have e := (off_facts t).2
  match a with
  | ⟨0, _⟩ => show k0_off2 (grid0.coords t) 0 + 1 * b.val = b.val; rw [e]; show 0 + 1 * b.val = b.val; omega
  | ⟨1, _⟩ => show k0_off2 (grid0.coords t) 1 + 1 * ch.val = ch.val; rw [e]; show 0 + 1 * ch.val = ch.val; omega
  | ⟨2, _⟩ => show k0_off2 (grid0.coords t) 2 + 1 * s.val = t.val % 8 * 512 + s.val; rw [e]; show t.val % 8 * 512 + 1 * s.val = _; omega

/-- The loss terms of tile (`a`, `k`) of the plane, summed: rows, then columns, then the batch. -/
def planeTile (X0 X1 : Vec Ideal S4x64x4096 .f32) (a : Fin 16) (k : Fin 8) : EReal :=
  ∑ r : Fin 256, ∑ s : Fin 512, ∑ b : Fin 4, pcell X0 X0 X1 X1 b (blkIdx hrows a r) (blkIdx hcols k s)

/-- A grid point's contribution is its tile of the plane. -/
theorem tile_at (t : Fin cfg0.N) (X0 X1 : Vec Ideal S4x64x4096 .f32) :
    tileSum (rowsOf (grid0.coords t) X0) (colsOf (grid0.coords t) X0) (rowsOf (grid0.coords t) X1) (colsOf (grid0.coords t) X1)
      = planeTile X0 X1 (rowOf t) (colOf t) := by
  unfold tileSum planeTile pcell
  refine Finset.sum_congr rfl fun r _ => Finset.sum_congr rfl fun s _ => Finset.sum_congr rfl fun b _ => ?_
  have g0 : gram (rowsOf (grid0.coords t) X0) (colsOf (grid0.coords t) X0) r s = gram X0 X0 (blkIdx hrows (rowOf t) r) (blkIdx hcols (colOf t) s) :=
    funext fun b' => Finset.sum_congr rfl fun ch _ => by rw [rows_at, cols_at]
  have g1 : gram (rowsOf (grid0.coords t) X1) (colsOf (grid0.coords t) X1) r s = gram X1 X1 (blkIdx hrows (rowOf t) r) (blkIdx hcols (colOf t) s) :=
    funext fun b' => Finset.sum_congr rfl fun ch _ => by rw [rows_at, cols_at]
  rw [g0, g1]

/-- All the tiles together are the whole plane. -/
theorem plane_eq (X0 X1 : Vec Ideal S4x64x4096 .f32) :
    levelTotal X0 X1 = ∑ a : Fin 16, ∑ k : Fin 8, planeTile X0 X1 a k := by
  unfold levelTotal tileSum planeTile
  exact sum_tiles hrows hcols fun I J => ∑ b : Fin 4, pcell X0 X0 X1 X1 b I J

end Cert.KernelIdeal.Blocks0

end
-- ==== Proof.Tile0.lean ====
/-
  The arithmetic of one tile step of level 0, as pure vector algebra over the extended reals.

  A tile step reads a row block `[4, 64, 256]` and a column block `[4, 64, 512]` of each feature array. For each array it
  forms the tile Gram `[4, 256, 512]` (contraction over the 64 channels), then normalises the four batch entries at each
  pair of positions by a softmax across the batch; it takes the absolute difference of the two results, sums it over the
  batch, then over the columns, then over the rows, and adds that one number to every entry of a `[1, 8, 128]` block.
  Read at an index, every operation is exact here, so the step adds `tileSum` of the four blocks.
-/
import proofs.«170279_j8040178778926_2_alg».proof.Proof.Spec
import proofs.«170279_j8040178778926_2_alg».proof.Proof.Gen.KernelIdeal.Skeleton
import Idealize.ShloMosaic.Lib.ValueLayout
import Idealize.ShloMosaic.Lib.Pipeline.Value

noncomputable section

namespace Cert.Affinity.Tile

open Idealize.ShloMosaic Idealize.ShloMosaic.ValueIdx Cert.Affinity Cert.KernelIdeal Cert.KernelIdeal.Gen

namespace L0

/-- The index a reduction over the batch axis reads: the reduced index with the batch coordinate put back in front. -/
theorem lift_batch (i : Fin 256) (j : Fin 512) (b : Fin 4) :
    reduces_S4x256x512_S256x512.lift (ix2 i j) b = ix3 b i j :=
  funext fun a => Fin.ext (by match a with | ⟨0, _⟩ => rfl | ⟨1, _⟩ => rfl | ⟨2, _⟩ => rfl)

/-- The maximum over the batch axis, from `-∞`, at a pair of positions. -/
theorem bmax_at (g : FVec Ideal S4x256x512 .f32) (i : Fin 256) (j : Fin 512) :
    multiReduction (F := Ideal) .maximumf [0] S256x512 g 0xFF800000#32 reduces_S4x256x512_S256x512 (.inl rfl) rfl (ix2 i j)
      = bmax fun b => g (ix3 b i j) := by
  refine (Ideal.multiReduction_maximumf_single g 0xFF800000#32 reduces_S4x256x512_S256x512 (.inl rfl) rfl (ix2 i j)).trans ?_
  unfold bmax
  exact congrArg (fun f : Fin 4 → EReal => (Finset.univ : Finset (Fin 4)).fold max negInf f)
    (funext fun b => congrArg g (lift_batch i j b))

/-- The sum over the batch axis at a pair of positions. -/
theorem bsum_at (g : FVec Ideal S4x256x512 .f32) (i : Fin 256) (j : Fin 512) :
    multiReduction (F := Ideal) .add [0] S256x512 g 0x00000000#32 reduces_S4x256x512_S256x512 (.inl rfl) rfl (ix2 i j)
      = ∑ b : Fin 4, g (ix3 b i j) := by
  refine (Ideal.multiReduction_add_single g 0x00000000#32 reduces_S4x256x512_S256x512 (.inl rfl) rfl (ix2 i j)).trans ?_
  exact Finset.sum_congr rfl fun b _ => congrArg g (lift_batch i j b)

/-- A plane with the batch axis put back as a unit axis and repeated over the batch reads, at `(b, i, j)`, the plane at `(i, j)`. -/
theorem keep_at (m : FVec Ideal S256x512 .f32) (b : Fin 4) (i : Fin 256) (j : Fin 512) :
    broadcastTo S4x256x512 (shapeCast S1x256x512 m shapeCasts_S256x512_S1x256x512) broadcasts_S1x256x512_S4x256x512 (ix3 b i j)
      = m (ix2 i j) := by
  refine (broadcastTo_apply _ broadcasts_S1x256x512_S4x256x512 (ix3 b i j) (ix3 (0 : Fin 1) i j) fun a => ?_).trans ?_
  · match a with
    | ⟨0, _⟩ => rfl
    | ⟨1, _⟩ => rfl
    | ⟨2, _⟩ => rfl
  · exact shapeCast_ab_1ab_apply m shapeCasts_S256x512_S1x256x512 0 i j

/-! The operand indices of the matrix product at an output index and a contraction index, coordinate by coordinate. -/
theorem lhs_0 (y : S4x256x512.Idx) (q : dot_S4x64x256_S4x64x512_S4x256x512_1_1_2_2_0_0.contr.Idx) : (dot_S4x64x256_S4x64x512_S4x256x512_1_1_2_2_0_0.lhsIdx y q 0).val = (y 0).val := by
  unfold DotDims.lhsIdx
  rw [dif_pos (show (0 : Fin S4x64x256.rank) ∈ dot_S4x64x256_S4x64x512_S4x256x512_1_1_2_2_0_0.lhsBatch by decide)]
  rfl
theorem lhs_1 (y : S4x256x512.Idx) (q : dot_S4x64x256_S4x64x512_S4x256x512_1_1_2_2_0_0.contr.Idx) : (dot_S4x64x256_S4x64x512_S4x256x512_1_1_2_2_0_0.lhsIdx y q 1).val = (q ⟨0, by decide⟩).val :=
  dot_S4x64x256_S4x64x512_S4x256x512_1_1_2_2_0_0.lhsIdx_val_of_single rfl y q
theorem lhs_2 (y : S4x256x512.Idx) (q : dot_S4x64x256_S4x64x512_S4x256x512_1_1_2_2_0_0.contr.Idx) : (dot_S4x64x256_S4x64x512_S4x256x512_1_1_2_2_0_0.lhsIdx y q 2).val = (y 1).val := by
  unfold DotDims.lhsIdx
  rw [dif_neg (show ¬(2 : Fin S4x64x256.rank) ∈ dot_S4x64x256_S4x64x512_S4x256x512_1_1_2_2_0_0.lhsBatch by decide),
    dif_pos (show (2 : Fin S4x64x256.rank) ∈ dot_S4x64x256_S4x64x512_S4x256x512_1_1_2_2_0_0.lhsNonContracting by decide)]
  rfl
theorem rhs_0 (y : S4x256x512.Idx) (q : dot_S4x64x256_S4x64x512_S4x256x512_1_1_2_2_0_0.contr.Idx) : (dot_S4x64x256_S4x64x512_S4x256x512_1_1_2_2_0_0.rhsIdx y q 0).val = (y 0).val := by
  unfold DotDims.rhsIdx
  rw [dif_pos (show (0 : Fin S4x64x512.rank) ∈ dot_S4x64x256_S4x64x512_S4x256x512_1_1_2_2_0_0.rhsBatch by decide)]
  rfl
theorem rhs_1 (y : S4x256x512.Idx) (q : dot_S4x64x256_S4x64x512_S4x256x512_1_1_2_2_0_0.contr.Idx) : (dot_S4x64x256_S4x64x512_S4x256x512_1_1_2_2_0_0.rhsIdx y q 1).val = (q ⟨0, by decide⟩).val :=
  dot_S4x64x256_S4x64x512_S4x256x512_1_1_2_2_0_0.rhsIdx_val_of_single rfl y q
theorem rhs_2 (y : S4x256x512.Idx) (q : dot_S4x64x256_S4x64x512_S4x256x512_1_1_2_2_0_0.contr.Idx) : (dot_S4x64x256_S4x64x512_S4x256x512_1_1_2_2_0_0.rhsIdx y q 2).val = (y 2).val := by
  unfold DotDims.rhsIdx
  rw [dif_neg (show ¬(2 : Fin S4x64x512.rank) ∈ dot_S4x64x256_S4x64x512_S4x256x512_1_1_2_2_0_0.rhsBatch by decide),
    dif_pos (show (2 : Fin S4x64x512.rank) ∈ dot_S4x64x256_S4x64x512_S4x256x512_1_1_2_2_0_0.rhsNonContracting by decide)]
  rfl

/-- The matrix product of a row block and a column block, contracted over the channel axis, is the Gram entry: rounding
    the operands to the narrower format is the identity on the extended reals, and the accumulator is the zero plane. -/
theorem gram_at (p : Vec Ideal S4x64x256 .f32) (q : Vec Ideal S4x64x512 .f32) (b : Fin 4) (i : Fin 256) (j : Fin 512) :
    matmul (F := Ideal) dot_S4x64x256_S4x64x512_S4x256x512_1_1_2_2_0_0 none
      (truncf .bf16 (shapeCast S4x64x256 p shapeCasts_S4x64x256_S4x64x256) bitsLt_bf16_f32)
      (truncf .bf16 (shapeCast S4x64x512 q shapeCasts_S4x64x512_S4x64x512) bitsLt_bf16_f32)
      (constant S4x256x512 .f32 0x00000000#32) (ix3 b i j) = gram p q i j b := by
  rw [shapeCast_self, shapeCast_self]
  simp only [matmul]
  rw [Ideal.matmul_constant_zero_apply, ← Equiv.sum_comp (contrEquiv1 dot_S4x64x256_S4x64x512_S4x256x512_1_1_2_2_0_0 64 rfl rfl).symm]
  unfold gram
  refine Finset.sum_congr rfl fun k _ => ?_
  have hk := contrEquiv1_symm_val dot_S4x64x256_S4x64x512_S4x256x512_1_1_2_2_0_0 64 rfl rfl k
  have el : dot_S4x64x256_S4x64x512_S4x256x512_1_1_2_2_0_0.lhsIdx (ix3 b i j) ((contrEquiv1 dot_S4x64x256_S4x64x512_S4x256x512_1_1_2_2_0_0 64 rfl rfl).symm k) = ix3 b k i :=
    funext fun a => Fin.ext (by
      match a with
      | ⟨0, _⟩ => exact lhs_0 _ _
      | ⟨1, _⟩ => exact (lhs_1 _ _).trans hk
      | ⟨2, _⟩ => exact lhs_2 _ _)
  have er : dot_S4x64x256_S4x64x512_S4x256x512_1_1_2_2_0_0.rhsIdx (ix3 b i j) ((contrEquiv1 dot_S4x64x256_S4x64x512_S4x256x512_1_1_2_2_0_0 64 rfl rfl).symm k) = ix3 b k j :=
    funext fun a => Fin.ext (by
      match a with
      | ⟨0, _⟩ => exact rhs_0 _ _
      | ⟨1, _⟩ => exact (rhs_1 _ _).trans hk
      | ⟨2, _⟩ => exact rhs_2 _ _)
  rw [el, er]
  rfl

/-- A stack of planes divided by its sum over the batch, at `(b, i, j)`. -/
theorem quot_at (e : FVec Ideal S4x256x512 .f32) (b : Fin 4) (i : Fin 256) (j : Fin 512) :
    divf e (broadcastTo S4x256x512 (shapeCast S1x256x512
        (multiReduction (F := Ideal) .add [0] S256x512 e 0x00000000#32 reduces_S4x256x512_S256x512 (.inl rfl) rfl)
        shapeCasts_S256x512_S1x256x512) broadcasts_S1x256x512_S4x256x512) (ix3 b i j)
      = Ideal.div (e (ix3 b i j)) (∑ k : Fin 4, e (ix3 k i j)) := by
  show Ideal.div (e (ix3 b i j)) (broadcastTo S4x256x512 (shapeCast S1x256x512
        (multiReduction (F := Ideal) .add [0] S256x512 e 0x00000000#32 reduces_S4x256x512_S256x512 (.inl rfl) rfl)
        shapeCasts_S256x512_S1x256x512) broadcasts_S1x256x512_S4x256x512 (ix3 b i j)) = _
  rw [keep_at, bsum_at]

/-- The exponential of a stack of planes less its maximum over the batch, at `(b, i, j)`, when the stack reads `γ` along
    the batch at `(i, j)`. -/
theorem num_at (g : FVec Ideal S4x256x512 .f32) (γ : Fin 4 → EReal) (i : Fin 256) (j : Fin 512)
    (hg : ∀ b, g (ix3 b i j) = γ b) (b : Fin 4) :
    exp (F := Ideal) (subf g (broadcastTo S4x256x512 (shapeCast S1x256x512
        (multiReduction (F := Ideal) .maximumf [0] S256x512 g 0xFF800000#32 reduces_S4x256x512_S256x512 (.inl rfl) rfl)
        shapeCasts_S256x512_S1x256x512) broadcasts_S1x256x512_S4x256x512)) (ix3 b i j)
      = Ideal.exp (γ b - bmax γ) := by
  show Ideal.exp (g (ix3 b i j) - broadcastTo S4x256x512 (shapeCast S1x256x512
        (multiReduction (F := Ideal) .maximumf [0] S256x512 g 0xFF800000#32 reduces_S4x256x512_S256x512 (.inl rfl) rfl)
        shapeCasts_S256x512_S1x256x512) broadcasts_S1x256x512_S4x256x512 (ix3 b i j)) = _
  rw [keep_at, bmax_at, hg, show (fun b' => g (ix3 b' i j)) = γ from funext hg]

/-- The softmax across the batch of such a stack, at `(b, i, j)`. -/
theorem smax_at (g : FVec Ideal S4x256x512 .f32) (γ : Fin 4 → EReal) (i : Fin 256) (j : Fin 512)
    (hg : ∀ b, g (ix3 b i j) = γ b) (b : Fin 4) :
    divf
        (exp (F := Ideal) (subf g (broadcastTo S4x256x512 (shapeCast S1x256x512
          (multiReduction (F := Ideal) .maximumf [0] S256x512 g 0xFF800000#32 reduces_S4x256x512_S256x512 (.inl rfl) rfl)
          shapeCasts_S256x512_S1x256x512) broadcasts_S1x256x512_S4x256x512)))
        (broadcastTo S4x256x512 (shapeCast S1x256x512
          (multiReduction (F := Ideal) .add [0] S256x512
            (exp (F := Ideal) (subf g (broadcastTo S4x256x512 (shapeCast S1x256x512
              (multiReduction (F := Ideal) .maximumf [0] S256x512 g 0xFF800000#32 reduces_S4x256x512_S256x512 (.inl rfl) rfl)
              shapeCasts_S256x512_S1x256x512) broadcasts_S1x256x512_S4x256x512)))
            0x00000000#32 reduces_S4x256x512_S256x512 (.inl rfl) rfl)
          shapeCasts_S256x512_S1x256x512) broadcasts_S1x256x512_S4x256x512) (ix3 b i j)
      = smax γ b := by
  refine (quot_at _ b i j).trans ?_
  unfold smax
  exact congrArg₂ Ideal.div (num_at g γ i j hg b) (Finset.sum_congr rfl fun k _ => num_at g γ i j hg k)

/-- The absolute difference of a stack of planes and a second stack normalised by its sum over the batch, at `(b, i, j)`. -/
theorem cell_at (s1 e2 : FVec Ideal S4x256x512 .f32) (b : Fin 4) (i : Fin 256) (j : Fin 512) :
    absf (F := Ideal) (subf s1 (divf e2 (broadcastTo S4x256x512 (shapeCast S1x256x512
        (multiReduction (F := Ideal) .add [0] S256x512 e2 0x00000000#32 reduces_S4x256x512_S256x512 (.inl rfl) rfl)
        shapeCasts_S256x512_S1x256x512) broadcasts_S1x256x512_S4x256x512))) (ix3 b i j)
      = max (s1 (ix3 b i j) - Ideal.div (e2 (ix3 b i j)) (∑ k : Fin 4, e2 (ix3 k i j)))
          (-(s1 (ix3 b i j) - Ideal.div (e2 (ix3 b i j)) (∑ k : Fin 4, e2 (ix3 k i j)))) := by
  rw [← quot_at e2 b i j]
  rfl

/-- The one index of the one-element vector shape. -/
theorem idx1_eq (j : S1.Idx) : j = ix1 (0 : Fin 1) :=
  funext fun a => match a with
    | ⟨0, _⟩ => Fin.ext (by have h : (j 0).val < 1 := (j 0).isLt; show (j 0).val = 0; omega)

/-- The sum over the columns of a plane, at a row. -/
theorem cols_at (m : FVec Ideal S256x512 .f32) (i : Fin 256) :
    multiReduction (F := Ideal) .add [1] S256 m 0x00000000#32 reduces_S256x512_S256 (.inl rfl) rfl (ix1 i)
      = ∑ j : Fin 512, m (ix2 i j) := by
  refine (Ideal.multiReduction_add_single m 0x00000000#32 reduces_S256x512_S256 (.inl rfl) rfl (ix1 i)).trans ?_
  exact Finset.sum_congr rfl fun j _ => congrArg m
    (funext fun a => Fin.ext (by match a with | ⟨0, _⟩ => rfl | ⟨1, _⟩ => rfl))

/-- A vector read as a one-column matrix. -/
theorem col_cast_at (v : FVec Ideal S256 .f32) (i : Fin 256) (u : Fin 1) :
    shapeCast S256x1 v shapeCasts_S256_S256x1 (ix2 i u) = v (ix1 i) :=
  shapeCast_apply v shapeCasts_S256_S256x1 _ _ (by
    have hu : u.val = 0 := by omega
    rw [Shape.rowMajor_val_one, Shape.rowMajor_val_two]
    show i.val = i.val * 1 + u.val
    rw [hu, Nat.mul_one, Nat.add_zero])

/-- The sum over the rows of a one-column matrix. -/
theorem rows_at (c : FVec Ideal S256x1 .f32) (j : S1.Idx) :
    multiReduction (F := Ideal) .add [0] S1 c 0x00000000#32 reduces_S256x1_S1 (.inl rfl) rfl j
      = ∑ i : Fin 256, c (ix2 i (0 : Fin 1)) := by
  obtain rfl := idx1_eq j
  refine (Ideal.multiReduction_add_single c 0x00000000#32 reduces_S256x1_S1 (.inl rfl) rfl (ix1 0)).trans ?_
  exact Finset.sum_congr rfl fun i _ => congrArg c
    (funext fun a => Fin.ext (by match a with | ⟨0, _⟩ => rfl | ⟨1, _⟩ => rfl))

/-- A one-element vector given two more unit axes and repeated over a `[1, 8, 128]` block reads its one element everywhere. -/
theorem unit_read (t : FVec Ideal S1 .f32) (y : S1x8x128.Idx) :
    broadcastTo S1x8x128 (shapeCast S1x1x1 (shapeCast S1x1x1 (shapeCast S1x1 t shapeCasts_S1_S1x1)
      shapeCasts_S1x1_S1x1x1) shapeCasts_S1x1x1_S1x1x1) broadcasts_S1x1x1_S1x8x128 y = t (ix1 (0 : Fin 1)) := by
  unfold broadcastTo shapeCast
  exact congrArg t (idx1_eq _)

/-- The three nested sums of a stack of planes — over the batch, then the columns, then the rows — added to a block. -/
theorem total_at (w : FVec Ideal S4x256x512 .f32) (v50 : Vec Ideal S1x8x128 .f32) (y : S1x8x128.Idx) :
    addf (F := Ideal) (shapeCast S1x8x128 v50 shapeCasts_S1x8x128_S1x8x128)
      (broadcastTo S1x8x128 (shapeCast S1x1x1 (shapeCast S1x1x1 (shapeCast S1x1
        (multiReduction (F := Ideal) .add [0] S1 (shapeCast S256x1
          (multiReduction (F := Ideal) .add [1] S256
            (multiReduction (F := Ideal) .add [0] S256x512 w 0x00000000#32 reduces_S4x256x512_S256x512 (.inl rfl) rfl)
            0x00000000#32 reduces_S256x512_S256 (.inl rfl) rfl) shapeCasts_S256_S256x1)
          0x00000000#32 reduces_S256x1_S1 (.inl rfl) rfl)
        shapeCasts_S1_S1x1) shapeCasts_S1x1_S1x1x1) shapeCasts_S1x1x1_S1x1x1) broadcasts_S1x1x1_S1x8x128) y
      = v50 y + ∑ i : Fin 256, ∑ j : Fin 512, ∑ b : Fin 4, w (ix3 b i j) := by
  refine (addf_apply _ _ y).trans ?_
  rw [shapeCast_self, unit_read, rows_at]
  refine congrArg (v50 y + ·) (Finset.sum_congr rfl fun i _ => ?_)
  rw [col_cast_at, cols_at]
  exact Finset.sum_congr rfl fun j _ => bsum_at w i j

/-- The value the step keeps for the first feature array is the softmax across the batch of its tile Gram. -/
theorem pay3_at (v8 : Vec Ideal S4x64x256 .f32) (v12 : Vec Ideal S4x64x512 .f32) (b : Fin 4) (i : Fin 256) (j : Fin 512) :
    k0_pay3 (F := Ideal) v8 v12 (ix3 b i j) = smax (gram v8 v12 i j) b :=
  smax_at _ (gram v8 v12 i j) i j (fun b' => gram_at v8 v12 b' i j) b

/-- The value the step keeps for the second feature array is the numerator of that softmax for its tile Gram. -/
theorem pay4_at (v16 : Vec Ideal S4x64x256 .f32) (v20 : Vec Ideal S4x64x512 .f32) (b : Fin 4) (i : Fin 256) (j : Fin 512) :
    k0_pay4 (F := Ideal) v16 v20 (ix3 b i j) = Ideal.exp (gram v16 v20 i j b - bmax (gram v16 v20 i j)) :=
  num_at _ (gram v16 v20 i j) i j (fun b' => gram_at v16 v20 b' i j) b

end L0

open L0

/-- The block the body stores: the block read, plus the tile's sum of `|softmax(gram₁) - softmax(gram₂)|`. -/
theorem pay1_0 (v8 v16 : Vec Ideal S4x64x256 .f32) (v12 v20 : Vec Ideal S4x64x512 .f32) (v50 : Vec Ideal S1x8x128 .f32) (y : S1x8x128.Idx) :
    k0_pay1 (F := Ideal) (k0_pay3 v8 v12) (k0_pay4 v16 v20) v50 y = v50 y + tileSum v8 v12 v16 v20 := by
  refine (total_at _ v50 y).trans ?_
  unfold tileSum
  refine congrArg (v50 y + ·) (Finset.sum_congr rfl fun i _ => Finset.sum_congr rfl fun j _ =>
    Finset.sum_congr rfl fun b _ => ?_)
  refine (cell_at _ _ b i j).trans ?_
  unfold pcell absdiff
  have h2 : Ideal.div (k0_pay4 (F := Ideal) v16 v20 (ix3 b i j)) (∑ k : Fin 4, k0_pay4 (F := Ideal) v16 v20 (ix3 k i j))
      = smax (gram v16 v20 i j) b := by
    unfold smax
    exact congrArg₂ Ideal.div (pay4_at v16 v20 b i j) (Finset.sum_congr rfl fun k _ => pay4_at v16 v20 k i j)
  rw [pay3_at, h2]

/-- The block the first step of a row of tiles stores: the zero word everywhere. -/
theorem pay2_0 (y : S1x8x128.Idx) : k0_pay2 (F := Ideal) y = zeroW := rfl

end Cert.Affinity.Tile
end
-- ==== Proof.Acc0.lean ====
/-
  What the first pallas_call leaves in its accumulator array.

  The two feature arrays are staged whole at every grid point, so a point's contribution is its tile of the plane of
  positions. Along a row of tiles the accumulator block restarts from zero at the first column tile and gains one
  tile per point, so at the row's last column tile — the only point whose block is written back — it holds zero plus
  the row's eight tiles; the accumulator array's entry (a, ·, ·) is that value for row of tiles `a`.
-/
import proofs.«170279_j8040178778926_2_alg».proof.Proof.Blocks0
import proofs.«170279_j8040178778926_2_alg».proof.Proof.Tile0
import Idealize.ShloMosaic.Lib.Pipeline.Value

set_option maxRecDepth 16384

noncomputable section

namespace Cert.KernelIdeal.Acc0

open Cert.KernelIdeal Cert.KernelIdeal.Gen Cert.KernelIdeal.Pieces0 Cert.KernelIdeal.Blocks0 Cert.Affinity Cert.Affinity.Sums
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The input windows never move: decided over the grid. -/
theorem in_idx : ∀ t : Fin cfg0.N, win0_0.index t = ![0, 0, 0] ∧ win0_1.index t = ![0, 0, 0] :=
  (by decide +kernel : ∀ t : Fin grid0.N, win0_0.index t = ![0, 0, 0] ∧ win0_1.index t = ![0, 0, 0])

/-- So each input window's block is its whole array, at every point. -/
theorem in0 (c : Dev nD) (t : Fin cfg0.N) : (iblk0 V c 0 t : Vec Ideal S4x64x4096 .f32) = V c main_v0 := by
  funext j
  show V c main_v0 (((cfg0.win 0).blk t).view.emb j) = V c main_v0 j
  refine congrArg (V c main_v0) (funext fun a => Fin.ext ?_)
  have e := (in_idx t).1
  match a with
  | ⟨0, _⟩ => show win0_0.index t 0 * 4 + 1 * (j 0).val = (j 0).val; rw [e]; show 0 * 4 + 1 * (j 0).val = _; omega
  | ⟨1, _⟩ => show win0_0.index t 1 * 64 + 1 * (j 1).val = (j 1).val; rw [e]; show 0 * 64 + 1 * (j 1).val = _; omega
  | ⟨2, _⟩ => show win0_0.index t 2 * 4096 + 1 * (j 2).val = (j 2).val; rw [e]; show 0 * 4096 + 1 * (j 2).val = _; omega
theorem in1 (c : Dev nD) (t : Fin cfg0.N) : (iblk0 V c 1 t : Vec Ideal S4x64x4096 .f32) = V c main_v1 := by
  funext j
  show V c main_v1 (((cfg0.win 1).blk t).view.emb j) = V c main_v1 j
  refine congrArg (V c main_v1) (funext fun a => Fin.ext ?_)
  have e := (in_idx t).2
  match a with
  | ⟨0, _⟩ => show win0_1.index t 0 * 4 + 1 * (j 0).val = (j 0).val; rw [e]; show 0 * 4 + 1 * (j 0).val = _; omega
  | ⟨1, _⟩ => show win0_1.index t 1 * 64 + 1 * (j 1).val = (j 1).val; rw [e]; show 0 * 64 + 1 * (j 1).val = _; omega
  | ⟨2, _⟩ => show win0_1.index t 2 * 4096 + 1 * (j 2).val = (j 2).val; rw [e]; show 0 * 4096 + 1 * (j 2).val = _; omega

/-- At the first column tile of a row the block ends at zero plus the point's tile. -/
theorem stepA (c : Dev nD) (t : Fin cfg0.N) (h0 : t.val % 8 = 0) (y : S1x8x128.Idx) :
    outsAt0 V c t.val t.isLt y = zeroW + planeTile (V c main_v0) (V c main_v1) (rowOf t) (colOf t) := by
  rw [outsAt0_A V c t h0, in0 V c t, in1 V c t, Pieces0.out_A]
  refine (Cert.Affinity.Tile.pay1_0 _ _ _ _ _ y).trans ?_
  rw [Cert.Affinity.Tile.pay2_0, Blocks0.tile_at]

/-- Elsewhere it ends at what the point before left plus the point's tile. -/
theorem stepB (c : Dev nD) (t : Fin cfg0.N) (h0 : ¬t.val % 8 = 0) (y : S1x8x128.Idx) :
    outsAt0 V c t.val t.isLt y
      = outsAt0 V c (t.val - 1) (Nat.lt_of_le_of_lt (Nat.sub_le _ _) t.isLt) y + planeTile (V c main_v0) (V c main_v1) (rowOf t) (colOf t) := by
  rw [outsAt0_B V c t h0, in0 V c t, in1 V c t, Pieces0.out_B]
  refine (Cert.Affinity.Tile.pay1_0 _ _ _ _ _ y).trans ?_
  rw [Blocks0.tile_at]

/-- The tile of grid position `n` (zero past the grid). -/
def term (c : Dev nD) (n : ℕ) : EReal :=
  if h : n < cfg0.N then planeTile (V c main_v0) (V c main_v1) (rowOf ⟨n, h⟩) (colOf ⟨n, h⟩) else 0

theorem term_at (c : Dev nD) (t : Fin cfg0.N) :
    term V c t.val = planeTile (V c main_v0) (V c main_v1) (rowOf t) (colOf t) := dif_pos t.isLt

/-- The block after grid position `n` is the running sum of the tiles: by induction along the grid. -/
theorem outs_eq (c : Dev nD) : ∀ (n : ℕ) (h : n < cfg0.N) (y : S1x8x128.Idx),
    outsAt0 V c n h y = rowRun zeroW 8 (term V c) n
  | 0, h, y => by
    refine (stepA V c ⟨0, h⟩ rfl y).trans ?_
    rw [rowRun_first zeroW 8 (term V c) 0 rfl, ← term_at V c ⟨0, h⟩]
  | n + 1, h, y => by
    by_cases h0 : (n + 1) % 8 = 0
    · refine (stepA V c ⟨n + 1, h⟩ h0 y).trans ?_
      rw [rowRun_first zeroW 8 (term V c) (n + 1) h0, ← term_at V c ⟨n + 1, h⟩]
    · refine (stepB V c ⟨n + 1, h⟩ h0 y).trans ?_
      rw [rowRun_next zeroW 8 (term V c) n h0, ← term_at V c ⟨n + 1, h⟩]
      show outsAt0 V c n _ y + _ = _
      rw [outs_eq c n]

/-- Zero plus the eight tiles of row of tiles `a`. -/
def rowTotal (c : Dev nD) (a : Fin 16) : EReal :=
  zeroW + ∑ s : Fin 8, planeTile (V c main_v0) (V c main_v1) a s

theorem term_row (c : Dev nD) (a : Fin 16) (s : Fin 8) :
    term V c (a.val * 8 + s.val) = planeTile (V c main_v0) (V c main_v1) a s := by
  have hN : cfg0.N = 128 := N_0
  have hlt : a.val * 8 + s.val < cfg0.N := by rw [hN]; omega
  unfold term
  rw [dif_pos hlt]
  have ea : rowOf ⟨a.val * 8 + s.val, hlt⟩ = a := Fin.ext (by show (a.val * 8 + s.val) / 8 = a.val; omega)
  have es : colOf ⟨a.val * 8 + s.val, hlt⟩ = s := Fin.ext (by show (a.val * 8 + s.val) % 8 = s.val; omega)
  rw [ea, es]

/-- At the last column tile of row `a` the block holds the row's total. -/
theorem outs_last (c : Dev nD) (a : Fin 16) (h : a.val * 8 + 7 < cfg0.N) (y : S1x8x128.Idx) :
    outsAt0 V c (a.val * 8 + 7) h y = rowTotal V c a := by
  rw [outs_eq V c _ h y]
  refine (rowRun_last zeroW 8 (by decide) (term V c) a.val).trans ?_
  unfold rowTotal
  exact congrArg (zeroW + ·) (Finset.sum_congr rfl fun s _ => term_row V c a s)

/-- The accumulator array as it ends: entry (a, ·, ·) is row `a`'s total. -/
def G0 (c : Dev nD) : (⟨S16x8x128, .f32⟩ : BufTy).Contents (Elt Ideal) :=
  fun i => rowTotal V c ⟨(i 0).val, (i 0).isLt⟩

/-- The accumulator window's block index is the row of tiles: decided over the grid. -/
theorem out_idx : ∀ t : Fin cfg0.N, win0_2.index t = ![t.val / 8, 0, 0] :=
  (by decide +kernel : ∀ t : Fin grid0.N, win0_2.index t = ![t.val / 8, 0, 0])

/-- What a writing-back point writes is its block of `G0`. -/
theorem flushed_eq (c : Dev nD) (t : Fin cfg0.N) (hf : (cfg0.win 2).flush t = true) :
    (dat0 V c).flushed 2 t = ((cfg0.win 2).blk t).view.read (Elt Ideal) (G0 V c) := by
  have h7 : t.val % 8 = 7 := (flush0_2 t).mp hf
  have hN : t.val < 128 := tN t
  show (cfg0.win 2).cut (grid0.coords t) ((dat0 V c).after 2 t) = _
  rw [after0_2]
  funext y
  show outsAt0 V c t.val t.isLt y = G0 V c (((cfg0.win 2).blk t).view.emb y)
  have hlt : (rowOf t).val * 8 + 7 < cfg0.N := by rw [show cfg0.N = 128 from N_0]; show t.val / 8 * 8 + 7 < 128; omega
  have e1 : outsAt0 V c t.val t.isLt y = outsAt0 V c ((rowOf t).val * 8 + 7) hlt y := by
    have : t.val = (rowOf t).val * 8 + 7 := by show t.val = t.val / 8 * 8 + 7; omega
    congr 1 <;> first | exact this | skip
  rw [e1, outs_last V c (rowOf t) hlt y]
  unfold G0
  refine congrArg (rowTotal V c) (Fin.ext ?_)
  have e := out_idx t
  have hy : (y 0).val < 1 := (y 0).isLt
  show t.val / 8 = win0_2.index t 0 * 1 + 1 * (y 0).val
  rw [e]; show t.val / 8 = t.val / 8 * 1 + 1 * (y 0).val; omega

/-- An index of the array is in point `t`'s block iff each coordinate is in the block's range. -/
theorem mem_blk (t : Fin cfg0.N) (i : S16x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v4).slice (win0_2.rect t)).set ↔ _
  rw [View.set_slice_whole, Rect.mem_set_unit]
  exact Iff.rfl

/-- Every entry of the array is written back by the last column tile of its row of tiles. -/
theorem cover (i : S16x8x128.Idx) : ∃ t : Fin cfg0.N, (cfg0.win 2).flush t = true ∧ i ∈ ((cfg0.win 2).blk t).view.set := by
  have h0 : (i 0).val < 16 := (i 0).isLt
  have h1 : (i 1).val < 8 := (i 1).isLt
  have h2 : (i 2).val < 128 := (i 2).isLt
  have hN : cfg0.N = 128 := N_0
  refine ⟨⟨(i 0).val * 8 + 7, by rw [hN]; omega⟩, (flush0_2 _).mpr (by show ((i 0).val * 8 + 7) % 8 = 7; omega), ?_⟩
  rw [mem_blk]
  have e := out_idx ⟨(i 0).val * 8 + 7, by rw [hN]; omega⟩
  intro a
  match a with
  | ⟨0, _⟩ => rw [e]; show ((i 0).val * 8 + 7) / 8 * 1 ≤ (i 0).val ∧ (i 0).val < ((i 0).val * 8 + 7) / 8 * 1 + 1; omega
  | ⟨1, _⟩ => rw [e]; show 0 * 8 ≤ (i 1).val ∧ (i 1).val < 0 * 8 + 8; omega
  | ⟨2, _⟩ => rw [e]; show 0 * 128 ≤ (i 2).val ∧ (i 2).val < 0 * 128 + 128; omega

/-- So the accumulator array ends holding, at entry (a, ·, ·), zero plus the eight tiles of row `a`. -/
theorem final (c : Dev nD) : (dat0 V c).arrAt 2 cfg0.N = G0 V c :=
  (dat0 V c).arrAt_eq_of_cover 2 (G0 V c) (flushed_eq V c) (cover)

end Cert.KernelIdeal.Acc0

end
-- ==== Proof.Level0.lean ====
/-
  The host's sum of the first pallas_call's accumulator array is the level's whole loss numerator.

  The host takes entry (a, 0, 0) of the array for each of the 16 rows of tiles and adds them to zero. Entry (a, ·, ·) is
  zero plus the eight tiles of row `a`; the word for zero denotes the extended real 0, so the host's sum is zero plus
  all 128 tiles, which together are the whole plane of position pairs.
-/
import proofs.«170279_j8040178778926_2_alg».proof.Proof.Acc0
import proofs.«170279_j8040178778926_2_alg».proof.Proof.Tail
import Idealize.ShloMosaic.PureOps.Ideal.Laws

set_option maxRecDepth 16384

noncomputable section

namespace Cert.KernelIdeal.Level0

open Cert.KernelIdeal Cert.KernelIdeal.Gen Cert.KernelIdeal.Blocks0 Cert.KernelIdeal.Acc0 Cert.KernelIdeal.Tail Cert.Affinity
open Idealize.ShloMosaic Idealize.ShloMosaic.ValueIdx Idealize.ShloMosaic.TcCoe Idealize.SL.Sem

/-- The host's slice-and-reshape reads entry (a, 0, 0) of the accumulator array. -/
theorem sliced_at (acc : (⟨S16x8x128, .f32⟩ : BufTy).Contents (Elt Ideal)) (a : Fin 16) :
    shapeCast S16 (extractStridedSlice S16x1x1 ![0, 0, 0] acc slices_S16x8x128_S16x1x1_0_0_0) shapeCasts_S16x1x1_S16 (ix1 a)
      = acc (ix3 a (0 : Fin 8) (0 : Fin 128)) := by
  refine (shapeCast_apply _ shapeCasts_S16x1x1_S16 (ix1 a) (ix3 a (0 : Fin 1) (0 : Fin 1)) ?_).trans ?_
  · rw [Shape.rowMajor_val_three, Shape.rowMajor_val_one]
    show (a.val * 1 + 0) * 1 + 0 = a.val
    omega
  · refine extractStridedSlice_apply _ acc _ (ix3 a (0 : Fin 1) (0 : Fin 1)) (ix3 a (0 : Fin 8) (0 : Fin 128)) fun b => ?_
    match b with
    | ⟨0, _⟩ => show a.val = 0 + a.val; omega
    | ⟨1, _⟩ => show 0 = 0 + 0; rfl
    | ⟨2, _⟩ => show 0 = 0 + 0; rfl

/-- A sum over the indices of a one-axis shape is the sum over the axis. -/
theorem sum_idx1 {M : Type*} [AddCommMonoid M] {n : Nat} (f : (⟨1, ![n]⟩ : Shape).Idx → M) :
    ∑ j : (⟨1, ![n]⟩ : Shape).Idx, f j = ∑ a : Fin n, f (ix1 a) :=
  (Equiv.sum_comp (⟨fun a => ix1 a, fun j => j 0, fun _ => rfl, fun j => (eq_ix1 j).symm⟩ : Fin n ≃ (⟨1, ![n]⟩ : Shape).Idx) f).symm

/-- The host's sum of an accumulator array, at the ideal values: zero plus its 16 entries (a, 0, 0). -/
theorem hsum0_apply (acc : (⟨S16x8x128, .f32⟩ : BufTy).Contents (Elt Ideal)) (i : S_.Idx) :
    hsum0 (F := Ideal) acc i = zeroW + ∑ a : Fin 16, acc (ix3 a (0 : Fin 8) (0 : Fin 128)) := by
  unfold hsum0
  generalize hy : shapeCast S16 (extractStridedSlice S16x1x1 ![0, 0, 0] acc slices_S16x8x128_S16x1x1_0_0_0) shapeCasts_S16x1x1_S16 = y0
  have hy' : ∀ a : Fin 16, y0 (ix1 a) = acc (ix3 a (0 : Fin 8) (0 : Fin 128)) := fun a => by rw [← hy]; exact sliced_at acc a
  simp only [Host.reduceAdd, Ideal.hostReduceAdd_def]
  rw [Ideal.hostReduceAdd_total reducesTo_S16_S_d0 (fun b => b.elim0) y0 _ i, sum_idx1]
  exact congrArg₂ (· + ·) rfl (Finset.sum_congr rfl fun k _ => hy' k)

variable (V : (c : Dev nD) → (b : Ref sig .tc) → Buf (Elt Ideal) ((c : Thread nD τ).loc b))

/-- The host's sum of the first call's final accumulator array is zero plus the level's loss numerator. -/
theorem level (c : Dev nD) :
    hsum0 (F := Ideal) ((dat0 V c).arrAt 2 cfg0.N) = fun _ => zeroW + levelTotal (V c main_v0) (V c main_v1) := by
  funext i
  rw [Acc0.final V c, hsum0_apply, Blocks0.plane_eq]
  refine congrArg (zeroW + ·) (Finset.sum_congr rfl fun a _ => ?_)
  show rowTotal V c ⟨a.val, _⟩ = _
  unfold rowTotal
  rw [show (zeroW : EReal) = 0 from Ideal.ofBits_zero_f32, zero_add]

end Cert.KernelIdeal.Level0

end
-- ==== Proof.Pieces1.lean ====
/-
  What one grid point of the second pallas_call leaves in the accumulator block, as a value.

  The body loads a 256-column slice and a 512-column slice of each feature array (the row and column positions of the
  point's tile), forms from them the tile's contribution, and adds it to the block. At the first column tile of a row
  of tiles the block is first overwritten with zeros, so the body leaves "zeros + contribution"; at every other point it
  leaves "what the block held + contribution".
-/
import proofs.«170279_j8040178778926_2_alg».proof.Proof.Gen.KernelIdeal.Frame
import Idealize.ShloMosaic.Lib.Pipeline.Value

set_option maxRecDepth 16384

noncomputable section

namespace Cert.KernelIdeal.Pieces1

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl

/-- The row-position slice of a feature array at grid point `i`: 256 columns from column `256 * i₀`. -/
abbrev rowsOf (i : grid1.Coords) (x : Vec F S4x128x1024 .f32) : Vec F S4x128x256 .f32 :=
  View.ld x (Rect.unit (s := S4x128x1024) (k1_off1 i) S4x128x256.size (k1_off1_inb i))
/-- The column-position slice at grid point `i`: 512 columns from column `512 * i₁`. -/
abbrev colsOf (i : grid1.Coords) (x : Vec F S4x128x1024 .f32) : Vec F S4x128x512 .f32 :=
  View.ld x (Rect.unit (s := S4x128x1024) (k1_off2 i) S4x128x512.size (k1_off2_inb i))

/-- Away from the first column tile the body leaves the block's contents plus the tile's contribution. -/
theorem out_B (c : Dev nD) (i : grid1.Coords) (a2 : Memref sig .tc .vmem S4x128x1024 .f32) (h2 : a2.IsWhole)
    (a3 : Memref sig .tc .vmem S4x128x1024 .f32) (h3 : a3.IsWhole) (a4 : Memref sig .tc .vmem S1x8x128 .f32) (h4 : a4.IsWhole)
    (hc : ¬cond1_0 i) (x0 x1 : Vec F S4x128x1024 .f32) (xo : Vec F S1x8x128 .f32) :
    out1_B_2 c i a2 h2 a3 h3 a4 h4 hc x0 x1 xo
      = k1_pay1 (k1_pay3 (rowsOf i x0) (colsOf i x0)) (k1_pay4 (rowsOf i x1) (colsOf i x1)) xo := by
  unfold out1_B_2
  rw [View.read_writes_eq_canon _ _ _ (cover1_B_2 c i a2 h2 a3 h3 a4 h4 hc x0 x1 xo)]
  unfold kernelRun1_B
  dsimp only
  sl_unfold_run_names
  rw [View.canon_unit_zero hz3]
  simp only [View.readAt_eq_ld, h2.read_unread, h3.read_unread, h4.read_unread, View.ld_unit_zero (S := S1x8x128) hz3]

/-- At the first column tile the body leaves zeros plus the tile's contribution. -/
theorem out_A (c : Dev nD) (i : grid1.Coords) (a2 : Memref sig .tc .vmem S4x128x1024 .f32) (h2 : a2.IsWhole)
    (a3 : Memref sig .tc .vmem S4x128x1024 .f32) (h3 : a3.IsWhole) (a4 : Memref sig .tc .vmem S1x8x128 .f32) (h4 : a4.IsWhole)
    (hc : cond1_0 i) (x0 x1 : Vec F S4x128x1024 .f32) :
    out1_A_2 c i a2 h2 a3 h3 a4 h4 hc x0 x1
      = k1_pay1 (k1_pay3 (rowsOf i x0) (colsOf i x0)) (k1_pay4 (rowsOf i x1) (colsOf i x1)) (k1_pay2 (F := F)) := by
  unfold out1_A_2
  rw [View.read_writes_eq_canon _ _ _ (cover1_A_2 c i a2 h2 a3 h3 a4 h4 hc x0 x1)]
  unfold kernelRun1_A
  dsimp only
  sl_unfold_run_names
  rw [View.canon_cons_unit_zero (S := S1x8x128) hz3]
  simp only [View.readAt_eq_ld, h2.read_unread, h3.read_unread, View.readCov_unit_zero (S := S1x8x128) _ hz3]

end Cert.KernelIdeal.Pieces1

end
-- ==== Proof.Blocks1.lean ====
/-
  Where a grid point's tile sits in the plane of positions (second pallas_call).

  Grid point `t` of the 4 × 2 grid is row of tiles `t / 2`, column tile `t % 2`. Its row slice of a feature array holds
  positions `(t / 2) * 256 + r`, its column slice positions `(t % 2) * 512 + s`; so the tile's contribution is the sum of
  the loss terms of exactly those position pairs, and the contributions of all 8 tiles add up to the whole plane's.
-/
import proofs.«170279_j8040178778926_2_alg».proof.Proof.Pieces1
import proofs.«170279_j8040178778926_2_alg».proof.Proof.Spec
import proofs.«170279_j8040178778926_2_alg».proof.Proof.Sums

set_option maxRecDepth 16384

noncomputable section

namespace Cert.KernelIdeal.Blocks1

open Cert.KernelIdeal Cert.KernelIdeal.Gen Cert.KernelIdeal.Pieces1 Cert.Affinity Cert.Affinity.Sums
open Idealize.ShloMosaic Idealize.ShloMosaic.ValueIdx Idealize.ShloMosaic.TcCoe Idealize.SL.Sem

theorem hrows : 4 * 256 = 1024 := rfl
theorem hcols : 2 * 512 = 1024 := rfl

/-- The printed offset chains, decided over the grid: the row slice starts at column `(t / 2) * 256`, the column slice
    at column `(t % 2) * 512`. -/
theorem off_facts : ∀ t : Fin cfg1.N, k1_off1 (grid1.coords t) = ![0, 0, t.val / 2 * 256] ∧ k1_off2 (grid1.coords t) = ![0, 0, t.val % 2 * 512] :=
  (by decide +kernel : ∀ t : Fin grid1.N, k1_off1 (grid1.coords t) = ![0, 0, t.val / 2 * 256] ∧ k1_off2 (grid1.coords t) = ![0, 0, t.val % 2 * 512])

theorem tN (t : Fin cfg1.N) : t.val < 8 := lt_of_lt_of_eq t.isLt (show cfg1.N = 8 from N_1)

/-- The row of tiles and the column tile of a grid point. -/
def rowOf (t : Fin cfg1.N) : Fin 4 := ⟨t.val / 2, by have := tN t; omega⟩
def colOf (t : Fin cfg1.N) : Fin 2 := ⟨t.val % 2, by omega⟩

variable {F : FTy → Type} [FloatOps F]

/-- The row slice at an index: position `r` of the tile's rows is position `(t / 2) * 256 + r` of the array. -/
theorem rows_at (t : Fin cfg1.N) (X : Vec F S4x128x1024 .f32) (b : Fin 4) (ch : Fin 128) (r : Fin 256) :
    rowsOf (grid1.coords t) X (ix3 b ch r) = X (ix3 b ch (blkIdx hrows (rowOf t) r)) := by
  show X ((Rect.unit (s := S4x128x1024) (k1_off1 (grid1.coords t)) S4x128x256.size (k1_off1_inb (grid1.coords t))).idx (ix3 b ch r)) = _
  refine congrArg X (funext fun a => Fin.ext ?_)
  have e := (off_facts t).1
  match a with
  | ⟨0, _⟩ => show k1_off1 (grid1.coords t) 0 + 1 * b.val = b.val; rw [e]; show 0 + 1 * b.val = b.val; omega
  | ⟨1, _⟩ => show k1_off1 (grid1.coords t) 1 + 1 * ch.val = ch.val; rw [e]; show 0 + 1 * ch.val = ch.val; omega
  | ⟨2, _⟩ => show k1_off1 (grid1.coords t) 2 + 1 * r.val = t.val / 2 * 256 + r.val; rw [e]; show t.val / 2 * 256 + 1 * r.val = _; omega

/-- The column slice at an index: position `s` of the tile's columns is position `(t % 2) * 512 + s` of the array. -/
theorem cols_at (t : Fin cfg1.N) (X : Vec F S4x128x1024 .f32) (b : Fin 4) (ch : Fin 128) (s : Fin 512) :
    colsOf (grid1.coords t) X (ix3 b ch s) = X (ix3 b ch (blkIdx hcols (colOf t) s)) := by
  show X ((Rect.unit (s := S4x128x1024) (k1_off2 (grid1.coords t)) S4x128x512.size (k1_off2_inb (grid1.coords t))).idx (ix3 b ch s)) = _
  refine congrArg X (funext fun a => Fin.ext ?_)
  have e := (off_facts t).2
  match a with
  | ⟨0, _⟩ => show k1_off2 (grid1.coords t) 0 + 1 * b.val = b.val; rw [e]; show 0 + 1 * b.val = b.val; omega
  | ⟨1, _⟩ => show k1_off2 (grid1.coords t) 1 + 1 * ch.val = ch.val; rw [e]; show 0 + 1 * ch.val = ch.val; omega
  | ⟨2, _⟩ => show k1_off2 (grid1.coords t) 2 + 1 * s.val = t.val % 2 * 512 + s.val; rw [e]; show t.val % 2 * 512 + 1 * s.val = _; omega

/-- The loss terms of tile (`a`, `k`) of the plane, summed: rows, then columns, then the batch. -/
def planeTile (X0 X1 : Vec Ideal S4x128x1024 .f32) (a : Fin 4) (k : Fin 2) : EReal :=
  ∑ r : Fin 256, ∑ s : Fin 512, ∑ b : Fin 4, pcell X0 X0 X1 X1 b (blkIdx hrows a r) (blkIdx hcols k s)

/-- A grid point's contribution is its tile of the plane. -/
theorem tile_at (t : Fin cfg1.N) (X0 X1 : Vec Ideal S4x128x1024 .f32) :
    tileSum (rowsOf (grid1.coords t) X0) (colsOf (grid1.coords t) X0) (rowsOf (grid1.coords t) X1) (colsOf (grid1.coords t) X1)
      = planeTile X0 X1 (rowOf t) (colOf t) := by
  unfold tileSum planeTile pcell
  refine Finset.sum_congr rfl fun r _ => Finset.sum_congr rfl fun s _ => Finset.sum_congr rfl fun b _ => ?_
  have g0 : gram (rowsOf (grid1.coords t) X0) (colsOf (grid1.coords t) X0) r s = gram X0 X0 (blkIdx hrows (rowOf t) r) (blkIdx hcols (colOf t) s) :=
    funext fun b' => Finset.sum_congr rfl fun ch _ => by rw [rows_at, cols_at]
  have g1 : gram (rowsOf (grid1.coords t) X1) (colsOf (grid1.coords t) X1) r s = gram X1 X1 (blkIdx hrows (rowOf t) r) (blkIdx hcols (colOf t) s) :=
    funext fun b' => Finset.sum_congr rfl fun ch _ => by rw [rows_at, cols_at]
  rw [g0, g1]

/-- All the tiles together are the whole plane. -/
theorem plane_eq (X0 X1 : Vec Ideal S4x128x1024 .f32) :
    levelTotal X0 X1 = ∑ a : Fin 4, ∑ k : Fin 2, planeTile X0 X1 a k := by
  unfold levelTotal tileSum planeTile
  exact sum_tiles hrows hcols fun I J => ∑ b : Fin 4, pcell X0 X0 X1 X1 b I J

end Cert.KernelIdeal.Blocks1

end
-- ==== Proof.Tile1.lean ====
/-
  The arithmetic of one tile step of level 1, as pure vector algebra over the extended reals.

  A tile step reads a row block `[4, 128, 256]` and a column block `[4, 128, 512]` of each feature array. For each array it
  forms the tile Gram `[4, 256, 512]` (contraction over the 128 channels), then normalises the four batch entries at each
  pair of positions by a softmax across the batch; it takes the absolute difference of the two results, sums it over the
  batch, then over the columns, then over the rows, and adds that one number to every entry of a `[1, 8, 128]` block.
  Read at an index, every operation is exact here, so the step adds `tileSum` of the four blocks.
-/
import proofs.«170279_j8040178778926_2_alg».proof.Proof.Spec
import proofs.«170279_j8040178778926_2_alg».proof.Proof.Gen.KernelIdeal.Skeleton
import Idealize.ShloMosaic.Lib.ValueLayout
import Idealize.ShloMosaic.Lib.Pipeline.Value

noncomputable section

namespace Cert.Affinity.Tile

open Idealize.ShloMosaic Idealize.ShloMosaic.ValueIdx Cert.Affinity Cert.KernelIdeal Cert.KernelIdeal.Gen

namespace L1

/-- The index a reduction over the batch axis reads: the reduced index with the batch coordinate put back in front. -/
theorem lift_batch (i : Fin 256) (j : Fin 512) (b : Fin 4) :
    reduces_S4x256x512_S256x512.lift (ix2 i j) b = ix3 b i j :=
  funext fun a => Fin.ext (by match a with | ⟨0, _⟩ => rfl | ⟨1, _⟩ => rfl | ⟨2, _⟩ => rfl)

/-- The maximum over the batch axis, from `-∞`, at a pair of positions. -/
theorem bmax_at (g : FVec Ideal S4x256x512 .f32) (i : Fin 256) (j : Fin 512) :
    multiReduction (F := Ideal) .maximumf [0] S256x512 g 0xFF800000#32 reduces_S4x256x512_S256x512 (.inl rfl) rfl (ix2 i j)
      = bmax fun b => g (ix3 b i j) := by
  refine (Ideal.multiReduction_maximumf_single g 0xFF800000#32 reduces_S4x256x512_S256x512 (.inl rfl) rfl (ix2 i j)).trans ?_
  unfold bmax
  exact congrArg (fun f : Fin 4 → EReal => (Finset.univ : Finset (Fin 4)).fold max negInf f)
    (funext fun b => congrArg g (lift_batch i j b))

/-- The sum over the batch axis at a pair of positions. -/
theorem bsum_at (g : FVec Ideal S4x256x512 .f32) (i : Fin 256) (j : Fin 512) :
    multiReduction (F := Ideal) .add [0] S256x512 g 0x00000000#32 reduces_S4x256x512_S256x512 (.inl rfl) rfl (ix2 i j)
      = ∑ b : Fin 4, g (ix3 b i j) := by
  refine (Ideal.multiReduction_add_single g 0x00000000#32 reduces_S4x256x512_S256x512 (.inl rfl) rfl (ix2 i j)).trans ?_
  exact Finset.sum_congr rfl fun b _ => congrArg g (lift_batch i j b)

/-- A plane with the batch axis put back as a unit axis and repeated over the batch reads, at `(b, i, j)`, the plane at `(i, j)`. -/
theorem keep_at (m : FVec Ideal S256x512 .f32) (b : Fin 4) (i : Fin 256) (j : Fin 512) :
    broadcastTo S4x256x512 (shapeCast S1x256x512 m shapeCasts_S256x512_S1x256x512) broadcasts_S1x256x512_S4x256x512 (ix3 b i j)
      = m (ix2 i j) := by
  refine (broadcastTo_apply _ broadcasts_S1x256x512_S4x256x512 (ix3 b i j) (ix3 (0 : Fin 1) i j) fun a => ?_).trans ?_
  · match a with
    | ⟨0, _⟩ => rfl
    | ⟨1, _⟩ => rfl
    | ⟨2, _⟩ => rfl
  · exact shapeCast_ab_1ab_apply m shapeCasts_S256x512_S1x256x512 0 i j

/-! The operand indices of the matrix product at an output index and a contraction index, coordinate by coordinate. -/
theorem lhs_0 (y : S4x256x512.Idx) (q : dot_S4x128x256_S4x128x512_S4x256x512_1_1_2_2_0_0.contr.Idx) : (dot_S4x128x256_S4x128x512_S4x256x512_1_1_2_2_0_0.lhsIdx y q 0).val = (y 0).val := by
  unfold DotDims.lhsIdx
  rw [dif_pos (show (0 : Fin S4x128x256.rank) ∈ dot_S4x128x256_S4x128x512_S4x256x512_1_1_2_2_0_0.lhsBatch by decide)]
  rfl
theorem lhs_1 (y : S4x256x512.Idx) (q : dot_S4x128x256_S4x128x512_S4x256x512_1_1_2_2_0_0.contr.Idx) : (dot_S4x128x256_S4x128x512_S4x256x512_1_1_2_2_0_0.lhsIdx y q 1).val = (q ⟨0, by decide⟩).val :=
  dot_S4x128x256_S4x128x512_S4x256x512_1_1_2_2_0_0.lhsIdx_val_of_single rfl y q
theorem lhs_2 (y : S4x256x512.Idx) (q : dot_S4x128x256_S4x128x512_S4x256x512_1_1_2_2_0_0.contr.Idx) : (dot_S4x128x256_S4x128x512_S4x256x512_1_1_2_2_0_0.lhsIdx y q 2).val = (y 1).val := by
  unfold DotDims.lhsIdx
  rw [dif_neg (show ¬(2 : Fin S4x128x256.rank) ∈ dot_S4x128x256_S4x128x512_S4x256x512_1_1_2_2_0_0.lhsBatch by decide),
    dif_pos (show (2 : Fin S4x128x256.rank) ∈ dot_S4x128x256_S4x128x512_S4x256x512_1_1_2_2_0_0.lhsNonContracting by decide)]
  rfl
theorem rhs_0 (y : S4x256x512.Idx) (q : dot_S4x128x256_S4x128x512_S4x256x512_1_1_2_2_0_0.contr.Idx) : (dot_S4x128x256_S4x128x512_S4x256x512_1_1_2_2_0_0.rhsIdx y q 0).val = (y 0).val := by
  unfold DotDims.rhsIdx
  rw [dif_pos (show (0 : Fin S4x128x512.rank) ∈ dot_S4x128x256_S4x128x512_S4x256x512_1_1_2_2_0_0.rhsBatch by decide)]
  rfl
theorem rhs_1 (y : S4x256x512.Idx) (q : dot_S4x128x256_S4x128x512_S4x256x512_1_1_2_2_0_0.contr.Idx) : (dot_S4x128x256_S4x128x512_S4x256x512_1_1_2_2_0_0.rhsIdx y q 1).val = (q ⟨0, by decide⟩).val :=
  dot_S4x128x256_S4x128x512_S4x256x512_1_1_2_2_0_0.rhsIdx_val_of_single rfl y q
theorem rhs_2 (y : S4x256x512.Idx) (q : dot_S4x128x256_S4x128x512_S4x256x512_1_1_2_2_0_0.contr.Idx) : (dot_S4x128x256_S4x128x512_S4x256x512_1_1_2_2_0_0.rhsIdx y q 2).val = (y 2).val := by
  unfold DotDims.rhsIdx
  rw [dif_neg (show ¬(2 : Fin S4x128x512.rank) ∈ dot_S4x128x256_S4x128x512_S4x256x512_1_1_2_2_0_0.rhsBatch by decide),
    dif_pos (show (2 : Fin S4x128x512.rank) ∈ dot_S4x128x256_S4x128x512_S4x256x512_1_1_2_2_0_0.rhsNonContracting by decide)]
  rfl

/-- The matrix product of a row block and a column block, contracted over the channel axis, is the Gram entry: rounding
    the operands to the narrower format is the identity on the extended reals, and the accumulator is the zero plane. -/
theorem gram_at (p : Vec Ideal S4x128x256 .f32) (q : Vec Ideal S4x128x512 .f32) (b : Fin 4) (i : Fin 256) (j : Fin 512) :
    matmul (F := Ideal) dot_S4x128x256_S4x128x512_S4x256x512_1_1_2_2_0_0 none
      (truncf .bf16 (shapeCast S4x128x256 p shapeCasts_S4x128x256_S4x128x256) bitsLt_bf16_f32)
      (truncf .bf16 (shapeCast S4x128x512 q shapeCasts_S4x128x512_S4x128x512) bitsLt_bf16_f32)
      (constant S4x256x512 .f32 0x00000000#32) (ix3 b i j) = gram p q i j b := by
  rw [shapeCast_self, shapeCast_self]
  simp only [matmul]
  rw [Ideal.matmul_constant_zero_apply, ← Equiv.sum_comp (contrEquiv1 dot_S4x128x256_S4x128x512_S4x256x512_1_1_2_2_0_0 128 rfl rfl).symm]
  unfold gram
  refine Finset.sum_congr rfl fun k _ => ?_
  have hk := contrEquiv1_symm_val dot_S4x128x256_S4x128x512_S4x256x512_1_1_2_2_0_0 128 rfl rfl k
  have el : dot_S4x128x256_S4x128x512_S4x256x512_1_1_2_2_0_0.lhsIdx (ix3 b i j) ((contrEquiv1 dot_S4x128x256_S4x128x512_S4x256x512_1_1_2_2_0_0 128 rfl rfl).symm k) = ix3 b k i :=
    funext fun a => Fin.ext (by
      match a with
      | ⟨0, _⟩ => exact lhs_0 _ _
      | ⟨1, _⟩ => exact (lhs_1 _ _).trans hk
      | ⟨2, _⟩ => exact lhs_2 _ _)
  have er : dot_S4x128x256_S4x128x512_S4x256x512_1_1_2_2_0_0.rhsIdx (ix3 b i j) ((contrEquiv1 dot_S4x128x256_S4x128x512_S4x256x512_1_1_2_2_0_0 128 rfl rfl).symm k) = ix3 b k j :=
    funext fun a => Fin.ext (by
      match a with
      | ⟨0, _⟩ => exact rhs_0 _ _
      | ⟨1, _⟩ => exact (rhs_1 _ _).trans hk
      | ⟨2, _⟩ => exact rhs_2 _ _)
  rw [el, er]
  rfl

/-- A stack of planes divided by its sum over the batch, at `(b, i, j)`. -/
theorem quot_at (e : FVec Ideal S4x256x512 .f32) (b : Fin 4) (i : Fin 256) (j : Fin 512) :
    divf e (broadcastTo S4x256x512 (shapeCast S1x256x512
        (multiReduction (F := Ideal) .add [0] S256x512 e 0x00000000#32 reduces_S4x256x512_S256x512 (.inl rfl) rfl)
        shapeCasts_S256x512_S1x256x512) broadcasts_S1x256x512_S4x256x512) (ix3 b i j)
      = Ideal.div (e (ix3 b i j)) (∑ k : Fin 4, e (ix3 k i j)) := by
  show Ideal.div (e (ix3 b i j)) (broadcastTo S4x256x512 (shapeCast S1x256x512
        (multiReduction (F := Ideal) .add [0] S256x512 e 0x00000000#32 reduces_S4x256x512_S256x512 (.inl rfl) rfl)
        shapeCasts_S256x512_S1x256x512) broadcasts_S1x256x512_S4x256x512 (ix3 b i j)) = _
  rw [keep_at, bsum_at]

/-- The exponential of a stack of planes less its maximum over the batch, at `(b, i, j)`, when the stack reads `γ` along
    the batch at `(i, j)`. -/
theorem num_at (g : FVec Ideal S4x256x512 .f32) (γ : Fin 4 → EReal) (i : Fin 256) (j : Fin 512)
    (hg : ∀ b, g (ix3 b i j) = γ b) (b : Fin 4) :
    exp (F := Ideal) (subf g (broadcastTo S4x256x512 (shapeCast S1x256x512
        (multiReduction (F := Ideal) .maximumf [0] S256x512 g 0xFF800000#32 reduces_S4x256x512_S256x512 (.inl rfl) rfl)
        shapeCasts_S256x512_S1x256x512) broadcasts_S1x256x512_S4x256x512)) (ix3 b i j)
      = Ideal.exp (γ b - bmax γ) := by
  show Ideal.exp (g (ix3 b i j) - broadcastTo S4x256x512 (shapeCast S1x256x512
        (multiReduction (F := Ideal) .maximumf [0] S256x512 g 0xFF800000#32 reduces_S4x256x512_S256x512 (.inl rfl) rfl)
        shapeCasts_S256x512_S1x256x512) broadcasts_S1x256x512_S4x256x512 (ix3 b i j)) = _
  rw [keep_at, bmax_at, hg, show (fun b' => g (ix3 b' i j)) = γ from funext hg]

/-- The softmax across the batch of such a stack, at `(b, i, j)`. -/
theorem smax_at (g : FVec Ideal S4x256x512 .f32) (γ : Fin 4 → EReal) (i : Fin 256) (j : Fin 512)
    (hg : ∀ b, g (ix3 b i j) = γ b) (b : Fin 4) :
    divf
        (exp (F := Ideal) (subf g (broadcastTo S4x256x512 (shapeCast S1x256x512
          (multiReduction (F := Ideal) .maximumf [0] S256x512 g 0xFF800000#32 reduces_S4x256x512_S256x512 (.inl rfl) rfl)
          shapeCasts_S256x512_S1x256x512) broadcasts_S1x256x512_S4x256x512)))
        (broadcastTo S4x256x512 (shapeCast S1x256x512
          (multiReduction (F := Ideal) .add [0] S256x512
            (exp (F := Ideal) (subf g (broadcastTo S4x256x512 (shapeCast S1x256x512
              (multiReduction (F := Ideal) .maximumf [0] S256x512 g 0xFF800000#32 reduces_S4x256x512_S256x512 (.inl rfl) rfl)
              shapeCasts_S256x512_S1x256x512) broadcasts_S1x256x512_S4x256x512)))
            0x00000000#32 reduces_S4x256x512_S256x512 (.inl rfl) rfl)
          shapeCasts_S256x512_S1x256x512) broadcasts_S1x256x512_S4x256x512) (ix3 b i j)
      = smax γ b := by
  refine (quot_at _ b i j).trans ?_
  unfold smax
  exact congrArg₂ Ideal.div (num_at g γ i j hg b) (Finset.sum_congr rfl fun k _ => num_at g γ i j hg k)

/-- The absolute difference of a stack of planes and a second stack normalised by its sum over the batch, at `(b, i, j)`. -/
theorem cell_at (s1 e2 : FVec Ideal S4x256x512 .f32) (b : Fin 4) (i : Fin 256) (j : Fin 512) :
    absf (F := Ideal) (subf s1 (divf e2 (broadcastTo S4x256x512 (shapeCast S1x256x512
        (multiReduction (F := Ideal) .add [0] S256x512 e2 0x00000000#32 reduces_S4x256x512_S256x512 (.inl rfl) rfl)
        shapeCasts_S256x512_S1x256x512) broadcasts_S1x256x512_S4x256x512))) (ix3 b i j)
      = max (s1 (ix3 b i j) - Ideal.div (e2 (ix3 b i j)) (∑ k : Fin 4, e2 (ix3 k i j)))
          (-(s1 (ix3 b i j) - Ideal.div (e2 (ix3 b i j)) (∑ k : Fin 4, e2 (ix3 k i j)))) := by
  rw [← quot_at e2 b i j]
  rfl

/-- The one index of the one-element vector shape. -/
theorem idx1_eq (j : S1.Idx) : j = ix1 (0 : Fin 1) :=
  funext fun a => match a with
    | ⟨0, _⟩ => Fin.ext (by have h : (j 0).val < 1 := (j 0).isLt; show (j 0).val = 0; omega)

/-- The sum over the columns of a plane, at a row. -/
theorem cols_at (m : FVec Ideal S256x512 .f32) (i : Fin 256) :
    multiReduction (F := Ideal) .add [1] S256 m 0x00000000#32 reduces_S256x512_S256 (.inl rfl) rfl (ix1 i)
      = ∑ j : Fin 512, m (ix2 i j) := by
  refine (Ideal.multiReduction_add_single m 0x00000000#32 reduces_S256x512_S256 (.inl rfl) rfl (ix1 i)).trans ?_
  exact Finset.sum_congr rfl fun j _ => congrArg m
    (funext fun a => Fin.ext (by match a with | ⟨0, _⟩ => rfl | ⟨1, _⟩ => rfl))

/-- A vector read as a one-column matrix. -/
theorem col_cast_at (v : FVec Ideal S256 .f32) (i : Fin 256) (u : Fin 1) :
    shapeCast S256x1 v shapeCasts_S256_S256x1 (ix2 i u) = v (ix1 i) :=
  shapeCast_apply v shapeCasts_S256_S256x1 _ _ (by
    have hu : u.val = 0 := by omega
    rw [Shape.rowMajor_val_one, Shape.rowMajor_val_two]
    show i.val = i.val * 1 + u.val
    rw [hu, Nat.mul_one, Nat.add_zero])

/-- The sum over the rows of a one-column matrix. -/
theorem rows_at (c : FVec Ideal S256x1 .f32) (j : S1.Idx) :
    multiReduction (F := Ideal) .add [0] S1 c 0x00000000#32 reduces_S256x1_S1 (.inl rfl) rfl j
      = ∑ i : Fin 256, c (ix2 i (0 : Fin 1)) := by
  obtain rfl := idx1_eq j
  refine (Ideal.multiReduction_add_single c 0x00000000#32 reduces_S256x1_S1 (.inl rfl) rfl (ix1 0)).trans ?_
  exact Finset.sum_congr rfl fun i _ => congrArg c
    (funext fun a => Fin.ext (by match a with | ⟨0, _⟩ => rfl | ⟨1, _⟩ => rfl))

/-- A one-element vector given two more unit axes and repeated over a `[1, 8, 128]` block reads its one element everywhere. -/
theorem unit_read (t : FVec Ideal S1 .f32) (y : S1x8x128.Idx) :
    broadcastTo S1x8x128 (shapeCast S1x1x1 (shapeCast S1x1x1 (shapeCast S1x1 t shapeCasts_S1_S1x1)
      shapeCasts_S1x1_S1x1x1) shapeCasts_S1x1x1_S1x1x1) broadcasts_S1x1x1_S1x8x128 y = t (ix1 (0 : Fin 1)) := by
  unfold broadcastTo shapeCast
  exact congrArg t (idx1_eq _)

/-- The three nested sums of a stack of planes — over the batch, then the columns, then the rows — added to a block. -/
theorem total_at (w : FVec Ideal S4x256x512 .f32) (v50 : Vec Ideal S1x8x128 .f32) (y : S1x8x128.Idx) :
    addf (F := Ideal) (shapeCast S1x8x128 v50 shapeCasts_S1x8x128_S1x8x128)
      (broadcastTo S1x8x128 (shapeCast S1x1x1 (shapeCast S1x1x1 (shapeCast S1x1
        (multiReduction (F := Ideal) .add [0] S1 (shapeCast S256x1
          (multiReduction (F := Ideal) .add [1] S256
            (multiReduction (F := Ideal) .add [0] S256x512 w 0x00000000#32 reduces_S4x256x512_S256x512 (.inl rfl) rfl)
            0x00000000#32 reduces_S256x512_S256 (.inl rfl) rfl) shapeCasts_S256_S256x1)
          0x00000000#32 reduces_S256x1_S1 (.inl rfl) rfl)
        shapeCasts_S1_S1x1) shapeCasts_S1x1_S1x1x1) shapeCasts_S1x1x1_S1x1x1) broadcasts_S1x1x1_S1x8x128) y
      = v50 y + ∑ i : Fin 256, ∑ j : Fin 512, ∑ b : Fin 4, w (ix3 b i j) := by
  refine (addf_apply _ _ y).trans ?_
  rw [shapeCast_self, unit_read, rows_at]
  refine congrArg (v50 y + ·) (Finset.sum_congr rfl fun i _ => ?_)
  rw [col_cast_at, cols_at]
  exact Finset.sum_congr rfl fun j _ => bsum_at w i j

/-- The value the step keeps for the first feature array is the softmax across the batch of its tile Gram. -/
theorem pay3_at (v8 : Vec Ideal S4x128x256 .f32) (v12 : Vec Ideal S4x128x512 .f32) (b : Fin 4) (i : Fin 256) (j : Fin 512) :
    k1_pay3 (F := Ideal) v8 v12 (ix3 b i j) = smax (gram v8 v12 i j) b :=
  smax_at _ (gram v8 v12 i j) i j (fun b' => gram_at v8 v12 b' i j) b

/-- The value the step keeps for the second feature array is the numerator of that softmax for its tile Gram. -/
theorem pay4_at (v16 : Vec Ideal S4x128x256 .f32) (v20 : Vec Ideal S4x128x512 .f32) (b : Fin 4) (i : Fin 256) (j : Fin 512) :
    k1_pay4 (F := Ideal) v16 v20 (ix3 b i j) = Ideal.exp (gram v16 v20 i j b - bmax (gram v16 v20 i j)) :=
  num_at _ (gram v16 v20 i j) i j (fun b' => gram_at v16 v20 b' i j) b

end L1

open L1

/-- The block the body stores: the block read, plus the tile's sum of `|softmax(gram₁) - softmax(gram₂)|`. -/
theorem pay1_1 (v8 v16 : Vec Ideal S4x128x256 .f32) (v12 v20 : Vec Ideal S4x128x512 .f32) (v50 : Vec Ideal S1x8x128 .f32) (y : S1x8x128.Idx) :
    k1_pay1 (F := Ideal) (k1_pay3 v8 v12) (k1_pay4 v16 v20) v50 y = v50 y + tileSum v8 v12 v16 v20 := by
  refine (total_at _ v50 y).trans ?_
  unfold tileSum
  refine congrArg (v50 y + ·) (Finset.sum_congr rfl fun i _ => Finset.sum_congr rfl fun j _ =>
    Finset.sum_congr rfl fun b _ => ?_)
  refine (cell_at _ _ b i j).trans ?_
  unfold pcell absdiff
  have h2 : Ideal.div (k1_pay4 (F := Ideal) v16 v20 (ix3 b i j)) (∑ k : Fin 4, k1_pay4 (F := Ideal) v16 v20 (ix3 k i j))
      = smax (gram v16 v20 i j) b := by
    unfold smax
    exact congrArg₂ Ideal.div (pay4_at v16 v20 b i j) (Finset.sum_congr rfl fun k _ => pay4_at v16 v20 k i j)
  rw [pay3_at, h2]

/-- The block the first step of a row of tiles stores: the zero word everywhere. -/
theorem pay2_1 (y : S1x8x128.Idx) : k1_pay2 (F := Ideal) y = zeroW := rfl

end Cert.Affinity.Tile
end
-- ==== Proof.Acc1.lean ====
/-
  What the second pallas_call leaves in its accumulator array.

  The two feature arrays are staged whole at every grid point, so a point's contribution is its tile of the plane of
  positions. Along a row of tiles the accumulator block restarts from zero at the first column tile and gains one
  tile per point, so at the row's last column tile — the only point whose block is written back — it holds zero plus
  the row's two tiles; the accumulator array's entry (a, ·, ·) is that value for row of tiles `a`.
-/
import proofs.«170279_j8040178778926_2_alg».proof.Proof.Blocks1
import proofs.«170279_j8040178778926_2_alg».proof.Proof.Tile1
import Idealize.ShloMosaic.Lib.Pipeline.Value

set_option maxRecDepth 16384

noncomputable section

namespace Cert.KernelIdeal.Acc1

open Cert.KernelIdeal Cert.KernelIdeal.Gen Cert.KernelIdeal.Pieces1 Cert.KernelIdeal.Blocks1 Cert.Affinity Cert.Affinity.Sums
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The input windows never move: decided over the grid. -/
theorem in_idx : ∀ t : Fin cfg1.N, win1_0.index t = ![0, 0, 0] ∧ win1_1.index t = ![0, 0, 0] :=
  (by decide +kernel : ∀ t : Fin grid1.N, win1_0.index t = ![0, 0, 0] ∧ win1_1.index t = ![0, 0, 0])

/-- So each input window's block is its whole array, at every point. -/
theorem in0 (c : Dev nD) (t : Fin cfg1.N) : (iblk1 V c 0 t : Vec Ideal S4x128x1024 .f32) = V c main_v2 := by
  funext j
  show V c main_v2 (((cfg1.win 0).blk t).view.emb j) = V c main_v2 j
  refine congrArg (V c main_v2) (funext fun a => Fin.ext ?_)
  have e := (in_idx t).1
  match a with
  | ⟨0, _⟩ => show win1_0.index t 0 * 4 + 1 * (j 0).val = (j 0).val; rw [e]; show 0 * 4 + 1 * (j 0).val = _; omega
  | ⟨1, _⟩ => show win1_0.index t 1 * 128 + 1 * (j 1).val = (j 1).val; rw [e]; show 0 * 128 + 1 * (j 1).val = _; omega
  | ⟨2, _⟩ => show win1_0.index t 2 * 1024 + 1 * (j 2).val = (j 2).val; rw [e]; show 0 * 1024 + 1 * (j 2).val = _; omega
theorem in1 (c : Dev nD) (t : Fin cfg1.N) : (iblk1 V c 1 t : Vec Ideal S4x128x1024 .f32) = V c main_v3 := by
  funext j
  show V c main_v3 (((cfg1.win 1).blk t).view.emb j) = V c main_v3 j
  refine congrArg (V c main_v3) (funext fun a => Fin.ext ?_)
  have e := (in_idx t).2
  match a with
  | ⟨0, _⟩ => show win1_1.index t 0 * 4 + 1 * (j 0).val = (j 0).val; rw [e]; show 0 * 4 + 1 * (j 0).val = _; omega
  | ⟨1, _⟩ => show win1_1.index t 1 * 128 + 1 * (j 1).val = (j 1).val; rw [e]; show 0 * 128 + 1 * (j 1).val = _; omega
  | ⟨2, _⟩ => show win1_1.index t 2 * 1024 + 1 * (j 2).val = (j 2).val; rw [e]; show 0 * 1024 + 1 * (j 2).val = _; omega

/-- At the first column tile of a row the block ends at zero plus the point's tile. -/
theorem stepA (c : Dev nD) (t : Fin cfg1.N) (h0 : t.val % 2 = 0) (y : S1x8x128.Idx) :
    outsAt1 V c t.val t.isLt y = zeroW + planeTile (V c main_v2) (V c main_v3) (rowOf t) (colOf t) := by
  rw [outsAt1_A V c t h0, in0 V c t, in1 V c t, Pieces1.out_A]
  refine (Cert.Affinity.Tile.pay1_1 _ _ _ _ _ y).trans ?_
  rw [Cert.Affinity.Tile.pay2_1, Blocks1.tile_at]

/-- Elsewhere it ends at what the point before left plus the point's tile. -/
theorem stepB (c : Dev nD) (t : Fin cfg1.N) (h0 : ¬t.val % 2 = 0) (y : S1x8x128.Idx) :
    outsAt1 V c t.val t.isLt y
      = outsAt1 V c (t.val - 1) (Nat.lt_of_le_of_lt (Nat.sub_le _ _) t.isLt) y + planeTile (V c main_v2) (V c main_v3) (rowOf t) (colOf t) := by
  rw [outsAt1_B V c t h0, in0 V c t, in1 V c t, Pieces1.out_B]
  refine (Cert.Affinity.Tile.pay1_1 _ _ _ _ _ y).trans ?_
  rw [Blocks1.tile_at]

/-- The tile of grid position `n` (zero past the grid). -/
def term (c : Dev nD) (n : ℕ) : EReal :=
  if h : n < cfg1.N then planeTile (V c main_v2) (V c main_v3) (rowOf ⟨n, h⟩) (colOf ⟨n, h⟩) else 0

theorem term_at (c : Dev nD) (t : Fin cfg1.N) :
    term V c t.val = planeTile (V c main_v2) (V c main_v3) (rowOf t) (colOf t) := dif_pos t.isLt

/-- The block after grid position `n` is the running sum of the tiles: by induction along the grid. -/
theorem outs_eq (c : Dev nD) : ∀ (n : ℕ) (h : n < cfg1.N) (y : S1x8x128.Idx),
    outsAt1 V c n h y = rowRun zeroW 2 (term V c) n
  | 0, h, y => by
    refine (stepA V c ⟨0, h⟩ rfl y).trans ?_
    rw [rowRun_first zeroW 2 (term V c) 0 rfl, ← term_at V c ⟨0, h⟩]
  | n + 1, h, y => by
    by_cases h0 : (n + 1) % 2 = 0
    · refine (stepA V c ⟨n + 1, h⟩ h0 y).trans ?_
      rw [rowRun_first zeroW 2 (term V c) (n + 1) h0, ← term_at V c ⟨n + 1, h⟩]
    · refine (stepB V c ⟨n + 1, h⟩ h0 y).trans ?_
      rw [rowRun_next zeroW 2 (term V c) n h0, ← term_at V c ⟨n + 1, h⟩]
      show outsAt1 V c n _ y + _ = _
      rw [outs_eq c n]

/-- Zero plus the two tiles of row of tiles `a`. -/
def rowTotal (c : Dev nD) (a : Fin 4) : EReal :=
  zeroW + ∑ s : Fin 2, planeTile (V c main_v2) (V c main_v3) a s

theorem term_row (c : Dev nD) (a : Fin 4) (s : Fin 2) :
    term V c (a.val * 2 + s.val) = planeTile (V c main_v2) (V c main_v3) a s := by
  have hN : cfg1.N = 8 := N_1
  have hlt : a.val * 2 + s.val < cfg1.N := by rw [hN]; omega
  unfold term
  rw [dif_pos hlt]
  have ea : rowOf ⟨a.val * 2 + s.val, hlt⟩ = a := Fin.ext (by show (a.val * 2 + s.val) / 2 = a.val; omega)
  have es : colOf ⟨a.val * 2 + s.val, hlt⟩ = s := Fin.ext (by show (a.val * 2 + s.val) % 2 = s.val; omega)
  rw [ea, es]

/-- At the last column tile of row `a` the block holds the row's total. -/
theorem outs_last (c : Dev nD) (a : Fin 4) (h : a.val * 2 + 1 < cfg1.N) (y : S1x8x128.Idx) :
    outsAt1 V c (a.val * 2 + 1) h y = rowTotal V c a := by
  rw [outs_eq V c _ h y]
  refine (rowRun_last zeroW 2 (by decide) (term V c) a.val).trans ?_
  unfold rowTotal
  exact congrArg (zeroW + ·) (Finset.sum_congr rfl fun s _ => term_row V c a s)

/-- The accumulator array as it ends: entry (a, ·, ·) is row `a`'s total. -/
def G0 (c : Dev nD) : (⟨S4x8x128, .f32⟩ : BufTy).Contents (Elt Ideal) :=
  fun i => rowTotal V c ⟨(i 0).val, (i 0).isLt⟩

/-- The accumulator window's block index is the row of tiles: decided over the grid. -/
theorem out_idx : ∀ t : Fin cfg1.N, win1_2.index t = ![t.val / 2, 0, 0] :=
  (by decide +kernel : ∀ t : Fin grid1.N, win1_2.index t = ![t.val / 2, 0, 0])

/-- What a writing-back point writes is its block of `G0`. -/
theorem flushed_eq (c : Dev nD) (t : Fin cfg1.N) (hf : (cfg1.win 2).flush t = true) :
    (dat1 V c).flushed 2 t = ((cfg1.win 2).blk t).view.read (Elt Ideal) (G0 V c) := by
  have h7 : t.val % 2 = 1 := (flush1_2 t).mp hf
  have hN : t.val < 8 := tN t
  show (cfg1.win 2).cut (grid1.coords t) ((dat1 V c).after 2 t) = _
  rw [after1_2]
  funext y
  show outsAt1 V c t.val t.isLt y = G0 V c (((cfg1.win 2).blk t).view.emb y)
  have hlt : (rowOf t).val * 2 + 1 < cfg1.N := by rw [show cfg1.N = 8 from N_1]; show t.val / 2 * 2 + 1 < 8; omega
  have e1 : outsAt1 V c t.val t.isLt y = outsAt1 V c ((rowOf t).val * 2 + 1) hlt y := by
    have : t.val = (rowOf t).val * 2 + 1 := by show t.val = t.val / 2 * 2 + 1; omega
    congr 1 <;> first | exact this | skip
  rw [e1, outs_last V c (rowOf t) hlt y]
  unfold G0
  refine congrArg (rowTotal V c) (Fin.ext ?_)
  have e := out_idx t
  have hy : (y 0).val < 1 := (y 0).isLt
  show t.val / 2 = win1_2.index t 0 * 1 + 1 * (y 0).val
  rw [e]; show t.val / 2 = t.val / 2 * 1 + 1 * (y 0).val; omega

/-- An index of the array is in point `t`'s block iff each coordinate is in the block's range. -/
theorem mem_blk (t : Fin cfg1.N) (i : S4x8x128.Idx) :
    i ∈ ((cfg1.win 2).blk t).view.set ↔ ∀ a : Fin 3, win1_2.index t a * S1x8x128.size a ≤ (i a).val ∧ (i a).val < win1_2.index t a * S1x8x128.size a + S1x8x128.size a := by
  show i ∈ ((View.whole main_v8).slice (win1_2.rect t)).set ↔ _
  rw [View.set_slice_whole, Rect.mem_set_unit]
  exact Iff.rfl

/-- Every entry of the array is written back by the last column tile of its row of tiles. -/
theorem cover (i : S4x8x128.Idx) : ∃ t : Fin cfg1.N, (cfg1.win 2).flush t = true ∧ i ∈ ((cfg1.win 2).blk t).view.set := by
  have h0 : (i 0).val < 4 := (i 0).isLt
  have h1 : (i 1).val < 8 := (i 1).isLt
  have h2 : (i 2).val < 128 := (i 2).isLt
  have hN : cfg1.N = 8 := N_1
  refine ⟨⟨(i 0).val * 2 + 1, by rw [hN]; omega⟩, (flush1_2 _).mpr (by show ((i 0).val * 2 + 1) % 2 = 1; omega), ?_⟩
  rw [mem_blk]
  have e := out_idx ⟨(i 0).val * 2 + 1, by rw [hN]; omega⟩
  intro a
  match a with
  | ⟨0, _⟩ => rw [e]; show ((i 0).val * 2 + 1) / 2 * 1 ≤ (i 0).val ∧ (i 0).val < ((i 0).val * 2 + 1) / 2 * 1 + 1; omega
  | ⟨1, _⟩ => rw [e]; show 0 * 8 ≤ (i 1).val ∧ (i 1).val < 0 * 8 + 8; omega
  | ⟨2, _⟩ => rw [e]; show 0 * 128 ≤ (i 2).val ∧ (i 2).val < 0 * 128 + 128; omega

/-- So the accumulator array ends holding, at entry (a, ·, ·), zero plus the two tiles of row `a`. -/
theorem final (c : Dev nD) : (dat1 V c).arrAt 2 cfg1.N = G0 V c :=
  (dat1 V c).arrAt_eq_of_cover 2 (G0 V c) (flushed_eq V c) (cover)

end Cert.KernelIdeal.Acc1

end
-- ==== Proof.Level1.lean ====
/-
  The host's sum of the second pallas_call's accumulator array is the level's whole loss numerator.

  The host takes entry (a, 0, 0) of the array for each of the 4 rows of tiles and adds them to zero. Entry (a, ·, ·) is
  zero plus the two tiles of row `a`; the word for zero denotes the extended real 0, so the host's sum is zero plus
  all 8 tiles, which together are the whole plane of position pairs.
-/
import proofs.«170279_j8040178778926_2_alg».proof.Proof.Acc1
import proofs.«170279_j8040178778926_2_alg».proof.Proof.Tail
import Idealize.ShloMosaic.PureOps.Ideal.Laws

set_option maxRecDepth 16384

noncomputable section

namespace Cert.KernelIdeal.Level1

open Cert.KernelIdeal Cert.KernelIdeal.Gen Cert.KernelIdeal.Blocks1 Cert.KernelIdeal.Acc1 Cert.KernelIdeal.Tail Cert.Affinity
open Idealize.ShloMosaic Idealize.ShloMosaic.ValueIdx Idealize.ShloMosaic.TcCoe Idealize.SL.Sem

/-- The host's slice-and-reshape reads entry (a, 0, 0) of the accumulator array. -/
theorem sliced_at (acc : (⟨S4x8x128, .f32⟩ : BufTy).Contents (Elt Ideal)) (a : Fin 4) :
    shapeCast S4 (extractStridedSlice S4x1x1 ![0, 0, 0] acc slices_S4x8x128_S4x1x1_0_0_0) shapeCasts_S4x1x1_S4 (ix1 a)
      = acc (ix3 a (0 : Fin 8) (0 : Fin 128)) := by
  refine (shapeCast_apply _ shapeCasts_S4x1x1_S4 (ix1 a) (ix3 a (0 : Fin 1) (0 : Fin 1)) ?_).trans ?_
  · rw [Shape.rowMajor_val_three, Shape.rowMajor_val_one]
    show (a.val * 1 + 0) * 1 + 0 = a.val
    omega
  · refine extractStridedSlice_apply _ acc _ (ix3 a (0 : Fin 1) (0 : Fin 1)) (ix3 a (0 : Fin 8) (0 : Fin 128)) fun b => ?_
    match b with
    | ⟨0, _⟩ => show a.val = 0 + a.val; omega
    | ⟨1, _⟩ => show 0 = 0 + 0; rfl
    | ⟨2, _⟩ => show 0 = 0 + 0; rfl

/-- A sum over the indices of a one-axis shape is the sum over the axis. -/
theorem sum_idx1 {M : Type*} [AddCommMonoid M] {n : Nat} (f : (⟨1, ![n]⟩ : Shape).Idx → M) :
    ∑ j : (⟨1, ![n]⟩ : Shape).Idx, f j = ∑ a : Fin n, f (ix1 a) :=
  (Equiv.sum_comp (⟨fun a => ix1 a, fun j => j 0, fun _ => rfl, fun j => (eq_ix1 j).symm⟩ : Fin n ≃ (⟨1, ![n]⟩ : Shape).Idx) f).symm

/-- The host's sum of an accumulator array, at the ideal values: zero plus its 4 entries (a, 0, 0). -/
theorem hsum1_apply (acc : (⟨S4x8x128, .f32⟩ : BufTy).Contents (Elt Ideal)) (i : S_.Idx) :
    hsum1 (F := Ideal) acc i = zeroW + ∑ a : Fin 4, acc (ix3 a (0 : Fin 8) (0 : Fin 128)) := by
  unfold hsum1
  generalize hy : shapeCast S4 (extractStridedSlice S4x1x1 ![0, 0, 0] acc slices_S4x8x128_S4x1x1_0_0_0) shapeCasts_S4x1x1_S4 = y0
  have hy' : ∀ a : Fin 4, y0 (ix1 a) = acc (ix3 a (0 : Fin 8) (0 : Fin 128)) := fun a => by rw [← hy]; exact sliced_at acc a
  simp only [Host.reduceAdd, Ideal.hostReduceAdd_def]
  rw [Ideal.hostReduceAdd_total reducesTo_S4_S_d0 (fun b => b.elim0) y0 _ i, sum_idx1]
  exact congrArg₂ (· + ·) rfl (Finset.sum_congr rfl fun k _ => hy' k)

variable (V : (c : Dev nD) → (b : Ref sig .tc) → Buf (Elt Ideal) ((c : Thread nD τ).loc b))

/-- The host's sum of the second call's final accumulator array is zero plus the level's loss numerator. -/
theorem level (c : Dev nD) :
    hsum1 (F := Ideal) ((dat1 V c).arrAt 2 cfg1.N) = fun _ => zeroW + levelTotal (V c main_v2) (V c main_v3) := by
  funext i
  rw [Acc1.final V c, hsum1_apply, Blocks1.plane_eq]
  refine congrArg (zeroW + ·) (Finset.sum_congr rfl fun a _ => ?_)
  show rowTotal V c ⟨a.val, _⟩ = _
  unfold rowTotal
  rw [show (zeroW : EReal) = 0 from Ideal.ofBits_zero_f32, zero_add]

end Cert.KernelIdeal.Level1

end
-- ==== Proof.RefLevel.lean ====
/-
  The reference side of the certificate, one level at a time, over the extended reals.

  For one level the reference reshapes each feature array to `r : [4, C, N]`, forms the Gram entries
  `g b = ∑ c, r[b, c, I] * r[b, c, J]` for every batch entry `b` and pair of positions `(I, J)`, normalises the four
  entries at one pair by a softmax ACROSS THE BATCH — the maximum taken by a fold of `max` from `-∞`, then once more
  against a plane of `-∞`, which changes nothing; the denominator a sum started from the word of `0`, which adds
  nothing — does the same for the second feature array, and sums `|softmax1 - softmax2|` over every `(b, I, J)`, again
  from the word of `0`.

  Each stage is read at an index `(b, I, J)` (or `(I, J)`) built from its coordinates, so that every index function of
  the program computes; the term the final sum adds at `(b, I, J)` is then `pcell` of the specification, and the sum over
  the whole index set `[4, N, N]` is regrouped as rows, columns, batch (`sum_idx3`): that is `levelTotal`. The second
  feature array goes through literally the same operations as the first, so its stages ARE the first's at another
  argument, and every reading is proved once per level.

    level0 : N = 4096, C = 64      level1 : N = 1024, C = 128
-/
import proofs.«170279_j8040178778926_2_alg».proof.Proof.Spec
import proofs.«170279_j8040178778926_2_alg».proof.Proof.Gen.ReferenceIdeal.Read

noncomputable section

namespace Cert.Affinity.Ref

open Idealize.ShloMosaic Idealize.ShloMosaic.ValueIdx Cert.Affinity Cert.ReferenceIdeal Cert.ReferenceIdeal.Read
open Cert.ReferenceIdeal.Gen

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, here with the first coordinate innermost. Addition is
    commutative and associative, nothing else is used. -/
theorem sum_idx3 {M : Type*} [AddCommMonoid M] {a n n' : Nat} (f : (⟨3, ![a, n, n']⟩ : Shape).Idx → M) :
    ∑ j, f j = ∑ I : Fin n, ∑ J : Fin n', ∑ b : Fin a, f (ix3 b I J) := by
  rw [← Equiv.sum_comp (idxEquiv3 (n0 := a) (n1 := n) (n2 := n')).symm f, Fintype.sum_prod_type]
  simp only [Fintype.sum_prod_type]
  rw [Finset.sum_comm]
  refine Finset.sum_congr rfl fun I _ => ?_
  rw [Finset.sum_comm]
  rfl

/-! ## The maximum across the batch -/

/-- A host reduction with a maximum body over the batch axis, started from the word of `-∞`, read at positions `(I, J)`:
    the fold of `max` over the four batch entries there. -/
theorem hostMax_ix {n n' : Nat} (x : (⟨3, ![4, n, n']⟩ : Shape).Idx → EReal)
    (h' : (⟨3, ![4, n, n']⟩ : Shape).ReducesTo [0] ⟨2, ![n, n']⟩) (h : (⟨3, ![4, n, n']⟩ : Shape).Reduces [0] ⟨2, ![n, n']⟩)
    (hu : 0 < (⟨0, ![]⟩ : Shape).numel) (I : Fin n) (J : Fin n') :
    Host.reduce (FloatOps.maximumf (F := Ideal) (φ := .f32)) x (constant (F := Ideal) ⟨0, ![]⟩ .f32 0xFF800000#32) h' hu (ix2 I J)
      = bmax fun b => x (ix3 b I J) := by
  refine (Host.reduce_eq_fold_single (FloatOps.maximumf (F := Ideal) (φ := .f32)) x _ h' h hu (ix2 I J)).trans ?_
  have hf : (x ∘ h.lift (ix2 I J)) = fun k : Fin 4 => x (ix3 k I J) :=
    funext fun k => congrArg x (funext fun a => Fin.ext (by match a with | ⟨0, _⟩ => rfl | ⟨1, _⟩ => rfl | ⟨2, _⟩ => rfl))
  exact congrArg (fun f => Finset.fold max negInf f (Finset.univ : Finset (Fin 4))) hf

/-- The maximum of `-∞`'s word and a fold of `max` that starts from the same word is the fold. -/
theorem max_negInf_bmax (g : Fin 4 → EReal) : max negInf (bmax g) = bmax g :=
  max_eq_right ((Finset.le_fold_max _).mpr (Or.inl le_rfl))

/-! ## Level 0: the reference's stages read at positions `(I, J)` and batch entry `b` -/

section Level0

variable (x : (⟨S4x64x64x64, .f32⟩ : BufTy).Contents (Elt Ideal))

/-- The `dot_general` is the Gram entry: batch entry `b`, the channels contracted, positions `I` and `J`. -/
theorem l0_gram (b : Fin 4) (I J : Fin 4096) :
    val_main_v1 (F := Ideal) x (ix3 b I J) = (gram (val_main_v0 (F := Ideal) x) (val_main_v0 (F := Ideal) x) I J) b := by
  rw [val_main_v1_apply]
  unfold gram
  refine Finset.sum_congr rfl fun k _ => ?_
  have el : lidx_main_v1 (ix3 b I J) k = ix3 b k I := funext fun a => Fin.ext (by match a with | ⟨0, _⟩ => rfl | ⟨1, _⟩ => rfl | ⟨2, _⟩ => rfl)
  have er : ridx_main_v1 (ix3 b I J) k = ix3 b k J := funext fun a => Fin.ext (by match a with | ⟨0, _⟩ => rfl | ⟨1, _⟩ => rfl | ⟨2, _⟩ => rfl)
  rw [el, er]

/-- The reduction with a maximum body over the batch, from `-∞`: the largest of the four Gram entries. -/
theorem l0_max (I J : Fin 4096) :
    val_main_v2 (F := Ideal) x (ix2 I J) = bmax (gram (val_main_v0 (F := Ideal) x) (val_main_v0 (F := Ideal) x) I J) := by
  unfold val_main_v2
  refine (hostMax_ix (val_main_v1 (F := Ideal) x) reducesTo_S4x4096x4096_S4096x4096_d0 (by decide) h_S_ I J).trans ?_
  exact congrArg bmax (funext fun b => l0_gram x b I J)

/-- Taking the maximum with a plane of `-∞` changes nothing: the fold already starts from `-∞`. -/
theorem l0_max' (I J : Fin 4096) :
    val_main_v4 (F := Ideal) x (ix2 I J) = bmax (gram (val_main_v0 (F := Ideal) x) (val_main_v0 (F := Ideal) x) I J) := by
  rw [val_main_v4_apply, val_main_v3_apply, val_main_cst_0_apply, l0_max]
  exact max_negInf_bmax _

/-- The maximum broadcast back over the batch. -/
theorem l0_maxB (b : Fin 4) (I J : Fin 4096) :
    val_main_v6 (F := Ideal) x (ix3 b I J) = bmax (gram (val_main_v0 (F := Ideal) x) (val_main_v0 (F := Ideal) x) I J) := by
  rw [val_main_v6_apply, val_main_v5_apply]
  have e : idx_main_v5 (idx_main_v6 (ix3 b I J)) = ix2 I J := funext fun a => Fin.ext (by match a with | ⟨0, _⟩ => rfl | ⟨1, _⟩ => rfl)
  rw [e, l0_max']

/-- The exponential of the shifted Gram entry. -/
theorem l0_exp (b : Fin 4) (I J : Fin 4096) :
    val_main_v8 (F := Ideal) x (ix3 b I J) = Ideal.exp ((gram (val_main_v0 (F := Ideal) x) (val_main_v0 (F := Ideal) x) I J) b - bmax (gram (val_main_v0 (F := Ideal) x) (val_main_v0 (F := Ideal) x) I J)) := by
  rw [val_main_v8_apply, val_main_v7_apply, l0_gram, l0_maxB]
  rfl

/-- The sum of the four exponentials: the host sum starts from the word of `0`, which adds nothing. -/
theorem l0_den (I J : Fin 4096) :
    val_main_v9 (F := Ideal) x (ix2 I J) = ∑ k : Fin 4, Ideal.exp ((gram (val_main_v0 (F := Ideal) x) (val_main_v0 (F := Ideal) x) I J) k - bmax (gram (val_main_v0 (F := Ideal) x) (val_main_v0 (F := Ideal) x) I J)) := by
  rw [val_main_v9_apply, val_main_cst_1_apply, Ideal.ofBits_def, Ideal.ofBits_zero_f32, zero_add]
  refine Finset.sum_congr rfl fun k _ => ?_
  have e : idx_main_v9 (ix2 I J) k = ix3 k I J := funext fun a => Fin.ext (by match a with | ⟨0, _⟩ => rfl | ⟨1, _⟩ => rfl | ⟨2, _⟩ => rfl)
  rw [e, l0_exp]

/-- The sum broadcast back over the batch. -/
theorem l0_denB (b : Fin 4) (I J : Fin 4096) :
    val_main_v11 (F := Ideal) x (ix3 b I J) = ∑ k : Fin 4, Ideal.exp ((gram (val_main_v0 (F := Ideal) x) (val_main_v0 (F := Ideal) x) I J) k - bmax (gram (val_main_v0 (F := Ideal) x) (val_main_v0 (F := Ideal) x) I J)) := by
  rw [val_main_v11_apply, val_main_v10_apply]
  have e : idx_main_v10 (idx_main_v11 (ix3 b I J)) = ix2 I J := funext fun a => Fin.ext (by match a with | ⟨0, _⟩ => rfl | ⟨1, _⟩ => rfl)
  rw [e, l0_den]

/-- The quotient is the softmax across the batch of the four Gram entries. -/
theorem l0_smax (b : Fin 4) (I J : Fin 4096) :
    val_main_v12 (F := Ideal) x (ix3 b I J) = smax (gram (val_main_v0 (F := Ideal) x) (val_main_v0 (F := Ideal) x) I J) b := by
  rw [val_main_v12_apply, l0_exp, l0_denB]
  rfl

end Level0

/-- The second feature array goes through the same operations as the first: its reshape and its softmax are the first's,
    taken at the other argument. -/
theorem l0_second_reshape (x : (⟨S4x64x64x64, .f32⟩ : BufTy).Contents (Elt Ideal)) :
    val_main_v13 (F := Ideal) x = val_main_v0 (F := Ideal) x := rfl
theorem l0_second_smax (x : (⟨S4x64x64x64, .f32⟩ : BufTy).Contents (Elt Ideal)) :
    val_main_v25 (F := Ideal) x = val_main_v12 (F := Ideal) x := rfl

/-- One term of the reference's sum is one term of the loss. -/
theorem l0_cell (x y : (⟨S4x64x64x64, .f32⟩ : BufTy).Contents (Elt Ideal)) (b : Fin 4) (I J : Fin 4096) :
    val_main_v27 (F := Ideal) x y (ix3 b I J)
      = pcell (val_main_v0 (F := Ideal) x) (val_main_v0 (F := Ideal) x) (val_main_v13 (F := Ideal) y) (val_main_v13 (F := Ideal) y) b I J := by
  rw [val_main_v27_apply, val_main_v26_apply, l0_second_smax, l0_smax, l0_smax, l0_second_reshape]
  rfl

/-- Level 0 of the reference: the word of `0` plus every term of the loss, the sum over the whole index set regrouped by
    row position, column position, batch entry. -/
theorem level0 (x0 x2 : (⟨S4x64x64x64, .f32⟩ : BufTy).Contents (Elt Ideal)) :
    val_main_v28 (F := Ideal) x0 x2 = fun _ => zeroW + levelTotal (val_main_v0 (F := Ideal) x0) (val_main_v13 (F := Ideal) x2) := by
  funext i
  rw [val_main_v28_apply, val_main_cst_5_apply, sum_idx3]
  refine congrArg (zeroW + ·) ?_
  unfold levelTotal tileSum
  exact Finset.sum_congr rfl fun I _ => Finset.sum_congr rfl fun J _ => Finset.sum_congr rfl fun b _ => l0_cell x0 x2 b I J

/-! ## Level 1: the reference's stages read at positions `(I, J)` and batch entry `b` -/

section Level1

variable (x : (⟨S4x128x32x32, .f32⟩ : BufTy).Contents (Elt Ideal))

/-- The `dot_general` is the Gram entry: batch entry `b`, the channels contracted, positions `I` and `J`. -/
theorem l1_gram (b : Fin 4) (I J : Fin 1024) :
    val_main_v31 (F := Ideal) x (ix3 b I J) = (gram (val_main_v30 (F := Ideal) x) (val_main_v30 (F := Ideal) x) I J) b := by
  rw [val_main_v31_apply]
  unfold gram
  refine Finset.sum_congr rfl fun k _ => ?_
  have el : lidx_main_v31 (ix3 b I J) k = ix3 b k I := funext fun a => Fin.ext (by match a with | ⟨0, _⟩ => rfl | ⟨1, _⟩ => rfl | ⟨2, _⟩ => rfl)
  have er : ridx_main_v31 (ix3 b I J) k = ix3 b k J := funext fun a => Fin.ext (by match a with | ⟨0, _⟩ => rfl | ⟨1, _⟩ => rfl | ⟨2, _⟩ => rfl)
  rw [el, er]

/-- The reduction with a maximum body over the batch, from `-∞`: the largest of the four Gram entries. -/
theorem l1_max (I J : Fin 1024) :
    val_main_v32 (F := Ideal) x (ix2 I J) = bmax (gram (val_main_v30 (F := Ideal) x) (val_main_v30 (F := Ideal) x) I J) := by
  unfold val_main_v32
  refine (hostMax_ix (val_main_v31 (F := Ideal) x) reducesTo_S4x1024x1024_S1024x1024_d0 (by decide) h_S_ I J).trans ?_
  exact congrArg bmax (funext fun b => l1_gram x b I J)

/-- Taking the maximum with a plane of `-∞` changes nothing: the fold already starts from `-∞`. -/
theorem l1_max' (I J : Fin 1024) :
    val_main_v34 (F := Ideal) x (ix2 I J) = bmax (gram (val_main_v30 (F := Ideal) x) (val_main_v30 (F := Ideal) x) I J) := by
  rw [val_main_v34_apply, val_main_v33_apply, val_main_cst_8_apply, l1_max]
  exact max_negInf_bmax _

/-- The maximum broadcast back over the batch. -/
theorem l1_maxB (b : Fin 4) (I J : Fin 1024) :
    val_main_v36 (F := Ideal) x (ix3 b I J) = bmax (gram (val_main_v30 (F := Ideal) x) (val_main_v30 (F := Ideal) x) I J) := by
  rw [val_main_v36_apply, val_main_v35_apply]
  have e : idx_main_v35 (idx_main_v36 (ix3 b I J)) = ix2 I J := funext fun a => Fin.ext (by match a with | ⟨0, _⟩ => rfl | ⟨1, _⟩ => rfl)
  rw [e, l1_max']

/-- The exponential of the shifted Gram entry. -/
theorem l1_exp (b : Fin 4) (I J : Fin 1024) :
    val_main_v38 (F := Ideal) x (ix3 b I J) = Ideal.exp ((gram (val_main_v30 (F := Ideal) x) (val_main_v30 (F := Ideal) x) I J) b - bmax (gram (val_main_v30 (F := Ideal) x) (val_main_v30 (F := Ideal) x) I J)) := by
  rw [val_main_v38_apply, val_main_v37_apply, l1_gram, l1_maxB]
  rfl

/-- The sum of the four exponentials: the host sum starts from the word of `0`, which adds nothing. -/
theorem l1_den (I J : Fin 1024) :
    val_main_v39 (F := Ideal) x (ix2 I J) = ∑ k : Fin 4, Ideal.exp ((gram (val_main_v30 (F := Ideal) x) (val_main_v30 (F := Ideal) x) I J) k - bmax (gram (val_main_v30 (F := Ideal) x) (val_main_v30 (F := Ideal) x) I J)) := by
  rw [val_main_v39_apply, val_main_cst_9_apply, Ideal.ofBits_def, Ideal.ofBits_zero_f32, zero_add]
  refine Finset.sum_congr rfl fun k _ => ?_
  have e : idx_main_v39 (ix2 I J) k = ix3 k I J := funext fun a => Fin.ext (by match a with | ⟨0, _⟩ => rfl | ⟨1, _⟩ => rfl | ⟨2, _⟩ => rfl)
  rw [e, l1_exp]

/-- The sum broadcast back over the batch. -/
theorem l1_denB (b : Fin 4) (I J : Fin 1024) :
    val_main_v41 (F := Ideal) x (ix3 b I J) = ∑ k : Fin 4, Ideal.exp ((gram (val_main_v30 (F := Ideal) x) (val_main_v30 (F := Ideal) x) I J) k - bmax (gram (val_main_v30 (F := Ideal) x) (val_main_v30 (F := Ideal) x) I J)) := by
  rw [val_main_v41_apply, val_main_v40_apply]
  have e : idx_main_v40 (idx_main_v41 (ix3 b I J)) = ix2 I J := funext fun a => Fin.ext (by match a with | ⟨0, _⟩ => rfl | ⟨1, _⟩ => rfl)
  rw [e, l1_den]

/-- The quotient is the softmax across the batch of the four Gram entries. -/
theorem l1_smax (b : Fin 4) (I J : Fin 1024) :
    val_main_v42 (F := Ideal) x (ix3 b I J) = smax (gram (val_main_v30 (F := Ideal) x) (val_main_v30 (F := Ideal) x) I J) b := by
  rw [val_main_v42_apply, l1_exp, l1_denB]
  rfl

end Level1

/-- The second feature array goes through the same operations as the first: its reshape and its softmax are the first's,
    taken at the other argument. -/
theorem l1_second_reshape (x : (⟨S4x128x32x32, .f32⟩ : BufTy).Contents (Elt Ideal)) :
    val_main_v43 (F := Ideal) x = val_main_v30 (F := Ideal) x := rfl
theorem l1_second_smax (x : (⟨S4x128x32x32, .f32⟩ : BufTy).Contents (Elt Ideal)) :
    val_main_v55 (F := Ideal) x = val_main_v42 (F := Ideal) x := rfl

/-- One term of the reference's sum is one term of the loss. -/
theorem l1_cell (x y : (⟨S4x128x32x32, .f32⟩ : BufTy).Contents (Elt Ideal)) (b : Fin 4) (I J : Fin 1024) :
    val_main_v57 (F := Ideal) x y (ix3 b I J)
      = pcell (val_main_v30 (F := Ideal) x) (val_main_v30 (F := Ideal) x) (val_main_v43 (F := Ideal) y) (val_main_v43 (F := Ideal) y) b I J := by
  rw [val_main_v57_apply, val_main_v56_apply, l1_second_smax, l1_smax, l1_smax, l1_second_reshape]
  rfl

/-- Level 1 of the reference: the word of `0` plus every term of the loss, the sum over the whole index set regrouped by
    row position, column position, batch entry. -/
theorem level1 (x1 x3 : (⟨S4x128x32x32, .f32⟩ : BufTy).Contents (Elt Ideal)) :
    val_main_v58 (F := Ideal) x1 x3 = fun _ => zeroW + levelTotal (val_main_v30 (F := Ideal) x1) (val_main_v43 (F := Ideal) x3) := by
  funext i
  rw [val_main_v58_apply, val_main_cst_13_apply, sum_idx3]
  refine congrArg (zeroW + ·) ?_
  unfold levelTotal tileSum
  exact Finset.sum_congr rfl fun I _ => Finset.sum_congr rfl fun J _ => Finset.sum_congr rfl fun b _ => l1_cell x1 x3 b I J

end Cert.Affinity.Ref

end
-- ==== Proof.lean ====
/-
  The affinity loss: a Pallas kernel against its jnp reference, equal over the extended reals.

  Per feature level both programs form the Gram matrix `∑ c, r[b, c, I] * r[b, c, J]` of each of two feature arrays,
  normalise the four batch entries of every position pair `(I, J)` by a softmax across the batch (maximum taken from
  `-∞`), and sum `|softmax₁ - softmax₂|` over all `(b, I, J)`; the result is the mean of the two levels' means.

  The reference does this on whole arrays: its level sum is `0 + ∑` over every index. The kernel walks a grid of
  256 × 512 tiles of the plane of position pairs; within a row of tiles an accumulator block restarts from zero and
  gains one tile's sum per grid point, is written back after the row's last tile, and the host adds one entry per row of
  tiles to zero. Over the extended reals addition is commutative and associative and the word for zero denotes 0, so
  the kernel's tile-by-tile sum is the reference's sum over every index: no finiteness of the inputs is used. The
  reference's extra `max (-∞) ·` around its batch maximum is the identity, and both programs divide by the same words
  `2^26`, `2^22` and `2`. The ideal pass rewrote nothing, so the idealization claim is trivial.

  Modules: Spec (the mathematics, stated once), Sums (sums cut into tiles; the running sum of a row of tiles),
  RefLevel (the reference's level sum is the specification's), Tile0 / Tile1 (one grid point's arithmetic is a tile
  of the specification), Pieces0 / Pieces1 (what one grid point leaves in the accumulator block), Blocks0 / Blocks1
  (where a grid point's tile sits in the plane), Acc0 / Acc1 (the accumulator array after the grid), Level0 / Level1 (the
  host's sum of it is the level's total), Tail (the host operations around the calls), KRun (the kernel's run with
  its result named).
-/
import proofs.«170279_j8040178778926_2_alg».proof.Defs
import proofs.«170279_j8040178778926_2_alg».proof.Proof.Gen.Kernel
import proofs.«170279_j8040178778926_2_alg».proof.Proof.Gen.Kernel.Frame
import proofs.«170279_j8040178778926_2_alg».proof.Proof.Gen.KernelIdeal
import proofs.«170279_j8040178778926_2_alg».proof.Proof.Gen.KernelIdeal.Frame
import proofs.«170279_j8040178778926_2_alg».proof.Proof.Gen.ReferenceIdeal
import proofs.«170279_j8040178778926_2_alg».proof.Proof.Gen.Pre_finite_inputs
import proofs.«170279_j8040178778926_2_alg».proof.Proof.Gen.ReferenceIdeal.Run
import proofs.«170279_j8040178778926_2_alg».proof.Proof.Gen.ReferenceIdeal.Read
import proofs.«170279_j8040178778926_2_alg».proof.Proof.KRun
import proofs.«170279_j8040178778926_2_alg».proof.Proof.Tail
import proofs.«170279_j8040178778926_2_alg».proof.Proof.Level0
import proofs.«170279_j8040178778926_2_alg».proof.Proof.Level1
import proofs.«170279_j8040178778926_2_alg».proof.Proof.RefLevel
import Idealize.ShloMosaic.Adequacy
import Idealize.ShloMosaic.Init

noncomputable section

namespace Cert.Proof

open Idealize.ShloMosaic Idealize.ShloMosaic.TcCoe Idealize.SL.Sem

/-- The kernel's result, as a value: the finish of the two levels' totals of the reshaped arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W5 m ρ c (Proc.devRef .tc Cert.KernelIdeal.main_v15)
      = Cert.ReferenceIdeal.Read.val_main_v61 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.KernelIdeal.Tail.result_eq, Cert.KernelIdeal.Level0.level, Cert.KernelIdeal.Level1.level,
    Cert.KernelIdeal.Tail.v1_v0, Cert.KernelIdeal.Tail.v1_v1, Cert.KernelIdeal.Tail.v3_v2, Cert.KernelIdeal.Tail.v3_v3]
  unfold Cert.ReferenceIdeal.Read.val_main_v61 Cert.ReferenceIdeal.Read.val_main_v60 Cert.ReferenceIdeal.Read.val_main_v29
    Cert.ReferenceIdeal.Read.val_main_v59
  rw [Cert.Affinity.Ref.level0, Cert.Affinity.Ref.level1]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs run, and end with the same extended real. -/
theorem algebraic : Cert.algebraic_KernelIdeal_ReferenceIdeal := by
  intro m ρ m' ρ' _ hagree
  refine ⟨fun c => Cert.KernelIdeal.Gen.W5 m ρ c (Proc.devRef .tc Cert.KernelIdeal.main_v15),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2]
  exact (kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
